-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x131072 : Shape := ⟨2, ![2, 131072]⟩
abbrev S131072 : Shape := ⟨1, ![131072]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S4096x128 .f32) (main_arg1 : IVec S2x131072 32) (main_arg2 : FVec F S131072 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  main_v8
-- ==== Kernel.lean ====
abbrev S4096x128 : Shape := ⟨2, ![4096, 128]⟩
abbrev S2x131072 : Shape := ⟨2, ![2, 131072]⟩
abbrev S131072 : Shape := ⟨1, ![131072]⟩
abbrev S1x131072 : Shape := ⟨2, ![1, 131072]⟩
abbrev S_ : Shape := ⟨0, ![]⟩
abbrev S131072x1 : Shape := ⟨2, ![131072, 1]⟩
abbrev S131072x2 : Shape := ⟨2, ![131072, 2]⟩
abbrev S4096x4096x2 : Shape := ⟨3, ![4096, 4096, 2]⟩
abbrev S4096x4096x1 : Shape := ⟨3, ![4096, 4096, 1]⟩
abbrev S4096x4096 : Shape := ⟨2, ![4096, 4096]⟩
abbrev S1024x1024 : Shape := ⟨2, ![1024, 1024]⟩

abbrev nBuf : Space → Nat
  | .hbm => 39
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S131072, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S131072, .f32⟩
  | .hbm, ⟨9, _⟩ => ⟨S131072x1, .f32⟩
  | .hbm, ⟨10, _⟩ => ⟨S131072x1, .f32⟩
  | .hbm, ⟨11, _⟩ => ⟨S131072x2, .f32⟩
  | .hbm, ⟨12, _⟩ => ⟨S_, .f32⟩
  | .hbm, ⟨13, _⟩ => ⟨S4096x4096x2, .f32⟩
  | .hbm, ⟨14, _⟩ => ⟨S_, .i32⟩
  | .hbm, ⟨15, _⟩ => ⟨S131072, .i32⟩
  | .hbm, ⟨16, _⟩ => ⟨S131072, .i1⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S131072, .i32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S131072x1, .i32⟩
  | .hbm, ⟨30, _⟩ => ⟨S131072x2, .i32⟩
  | .hbm, ⟨31, _⟩ => ⟨S4096x4096x2, .f32⟩
  | .hbm, ⟨32, _⟩ => ⟨S4096x4096x1, .f32⟩
  | .hbm, ⟨33, _⟩ => ⟨S4096x4096, .f32⟩
  | .hbm, ⟨34, _⟩ => ⟨S4096x4096x1, .f32⟩
  | .hbm, ⟨35, _⟩ => ⟨S4096x4096, .f32⟩
  | .hbm, ⟨36, _⟩ => ⟨S4096x4096, .bf16⟩
  | .hbm, ⟨37, _⟩ => ⟨S4096x4096, .f32⟩
  | .hbm, ⟨38, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S_S4096x4096x2 : S_.BroadcastsInDim S4096x4096x2 (![] : Fin 0 → Fin S4096x4096x2.rank)
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S4096x4096x2_S131072x2_S131072x2_1_01_01_1_wf : ScatterDims.WF S4096x4096x2 S131072x2 S131072x2 [1] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .f32 = 32 ∨ (Rect.block (s := S4096x4096) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .f32 = 32 ∨ (Rect.block (s := S4096x4096) S1024x1024.size (cc1_transform_5 i) (hinb1_5 i)).WholeWords (EltTy.packing .f32)

variable [Facts₀]

def scatter_S4096x4096x2_S131072x2_S131072x2_1_01_01_1 : ScatterDims S4096x4096x2 S131072x2 S131072x2 where
  updateWindowDims := [1]
  insertedWindowDims := [0, 1]
  scatterDimsToOperandDims := [0, 1]
  indexVectorDim := 1
  wf := scatter_S4096x4096x2_S131072x2_S131072x2_1_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v27) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v27) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S2x131072 : Shape := ⟨2, ![2, 131072]⟩
abbrev S131072 : Shape := ⟨1, ![131072]⟩
abbrev S1x131072 : Shape := ⟨2, ![1, 131072]⟩
abbrev S_ : Shape := ⟨0, ![]⟩
abbrev S4096x4096 : Shape := ⟨2, ![4096, 4096]⟩
abbrev S131072x1 : Shape := ⟨2, ![131072, 1]⟩
abbrev S131072x2 : Shape := ⟨2, ![131072, 2]⟩

abbrev nBuf : Space → Nat
  | .hbm => 78
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S131072, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S4096x4096, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x1, .i32⟩
  | .hbm, ⟨45, _⟩ => ⟨S131072x2, .i32⟩
  | .hbm, ⟨46, _⟩ => ⟨S_, .f32⟩
  | .hbm, ⟨47, _⟩ => ⟨S131072, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .i1⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .i1⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_call1_v0 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S4096x4096 : S_.BroadcastsInDim S4096x4096 (![] : Fin 0 → Fin S4096x4096.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  scatter_S4096x4096_S131072x2_S131072_n_01_01_1_wf : ScatterDims.WF S4096x4096 S131072x2 S131072 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.R0Runs.lean ====
import proofs.«160133_j25744033972455_2_alg».proof.Proof.Gen.Kernel.Launch
import proofs.«160133_j25744033972455_2_alg».proof.Proof.Gen.Kernel.Skeleton
import proofs.«160133_j25744033972455_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the thresholded product `thr(A·A)`, accumulated over the reduction axis

The grid is `4 × 4 × 4`; the last coordinate `k = t % 4` is the reduction axis. At `k = 0` the accumulator is
zeroed, at every `k` one block product is added to it, at `k = 3` the thresholded accumulator is stored to the
output block. Everything here is stated at the buffer contents `V` the region is entered with. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point, for any proof data whose array is `V`'s and
    whose body leaves the block in place: the window is an input, never idle, and its blocks tile the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right factor's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- The first conditional's test: the reduction coordinate is `0`. -/
abbrev cond0_0 (i : grid0.Coords) : Prop := (Scalar.cmpi .ne (Scalar.extui (Scalar.cmpi .eq (BitVec.ofNat 32 (i 2).val) 0#32)) 0#32) = 1#1
/-- It holds exactly at the points `t ≡ 0 (mod 4)`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test: the reduction coordinate is `3`. -/
abbrev cond0_1 (i : grid0.Coords) : Prop := k0_cond2 i = 1#1
/-- It holds exactly at the points `t ≡ 3 (mod 4)`. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where `k = 0` the output block is not stored: the window is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Where `k ∈ {1, 2}` likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where `k = 3` the output block is stored: the window is live. -/
theorem liveAt0_2_C : ∀ t : Fin cfg0.N, ¬cond0_0 (grid0.coords t) → cond0_1 (grid0.coords t) → cfg0.idle 2 (grid0.coords t) = false := by decide +kernel

/-! ## The staging memrefs and the accumulator -/

/-- One staging buffer of the output window, through which its contents are stated (the choice does not matter:
    a covering list of stores reads back the same through any whole view). -/
abbrev VO0_2 : View sig .tc .vmem S1024x1024 .f32 := (Memref.whole cc0_stg2_0 : Memref sig .tc .vmem S1024x1024 .f32).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S1024x1024 .f32 := Memref.whole cc0_scratch0
/-- The accumulator as a view: what it holds is stated through it. -/
abbrev VS0 : View sig .tc .vmem S1024x1024 .f32 := scM0.view

/-- The core's scoped buffers that region 0 never touches (the other region's staging buffers and accumulator), each
    whole at some contents: they ride along unchanged. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region: the accumulator owned at some contents, the untouched scoped buffers, and the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.Kernel.Hand

end
-- ==== Proof.K.R0RunA.lean ====
import proofs.«160133_j25744033972455_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE BODY WHERE `k = 0` (first conditional taken, second not). On whole staging memrefs — the two factors' at their
    blocks `x0`, `x1`, the output's at contents `xi2` that are handed back untouched, the accumulator at anything — the
    body runs to the continuation holding the factors' and the output's as they were and the accumulator with the
    pieces `LS0` written (first the zero block, then zero plus the product `x0 · x1`). The pieces are the witness the
    run finds. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_thresh_kernel i arg3 harg3 arg4 harg4 arg5 harg5 arg6 harg6) K } := by
  refine ⟨[], ?_, fun xi2 E K => ?run⟩
  case run =>
    simp only [cc0__matmul_thresh_kernel_eq_skeleton]; unfold cc0__matmul_thresh_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R0RunB.lean ====
import proofs.«160133_j25744033972455_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE BODY WHERE `k ∈ {1, 2}` (neither conditional taken). On whole staging memrefs — the two factors' at their blocks
    `x0`, `x1`, the output's at contents `xi2` that are handed back untouched, the accumulator at what the point before
    left, `xs0` — the body runs to the continuation holding the factors' and the output's as they were and the
    accumulator with the pieces `LS0` written (`xs0` plus the product `x0 · x1`). -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_thresh_kernel i arg3 harg3 arg4 harg4 arg5 harg5 arg6 harg6) K } := by
  refine ⟨[], ?_, fun xi2 E K => ?run⟩
  case run =>
    simp only [cc0__matmul_thresh_kernel_eq_skeleton]; unfold cc0__matmul_thresh_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R0RunC.lean ====
import proofs.«160133_j25744033972455_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE BODY WHERE `k = 3` (second conditional taken, first not). On whole staging memrefs — the two factors' at their
    blocks `x0`, `x1`, the output's at anything, the accumulator at what the point before left, `xs0` — the body runs
    to the continuation holding the factors' as they were, the accumulator with the pieces `LS0` written (`xs0` plus the
    product `x0 · x1`) and the output's buffer with the pieces `L2` written (the thresholded accumulator). -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_thresh_kernel i arg3 harg3 arg4 harg4 arg5 harg5 arg6 harg6) K } := by
  refine ⟨?_, ?_, fun E K => ?run⟩
  case run =>
    simp only [cc0__matmul_thresh_kernel_eq_skeleton]; unfold cc0__matmul_thresh_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.R0Frame.lean ====
import proofs.«160133_j25744033972455_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the accumulator and the output block hold, point by point, and the body obligation -/

theorem not3_of_mod0 {n : ℕ} (h : n % 4 = 0) : ¬ n % 4 = 3 := by omega
theorem not0_of_mod3 {n : ℕ} (h : n % 4 = 3) : ¬ n % 4 = 0 := by omega

/-! ## The pieces of each case cover their buffers -/

/-- Where `k = 0`: the accumulator's pieces (two whole-block stores) cover it. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What the accumulator holds after the body where `k = 0`: its pieces read back. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0.read (Elt F) (VS0.writes (Elt F) VS0.junk (kernelRun0_A c i arg3 harg3 arg4 harg4 arg5 harg5 arg6 harg6 hc0 hc1 x0 x1).2.1)

/-- Where `k ∈ {1, 2}`: the accumulator's piece (one whole-block store) covers it. -/
theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What the accumulator holds after the body where `k ∈ {1, 2}`. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs0).2.1)

/-- Where `k = 3`: the output block's piece (one whole-block store) covers it. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the output's staging buffer holds after the body where `k = 3`. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_C c i arg3 harg3 arg4 harg4 arg5 harg5 arg6 harg6 hc0 hc1 x0 x1 xs0).1)

/-- Where `k = 3`: the accumulator's piece covers it. -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the accumulator holds after the body where `k = 3`. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs0).2.1)

/-! ## The accumulation -/

/-- THE ACCUMULATION. What the accumulator holds after the body at position `n`: where `n ≡ 0 (mod 4)` the case-`k = 0`
    contents (zero plus the point's block product); elsewhere the case's contents over what position `n - 1` left. -/
def acc0 (c : Dev nD) : (n : ℕ) → n < cfg0.N → Vec F S1024x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => not3_of_mod0 (Nat.zero_mod 4) ((hcond0_1 ⟨0, hn⟩).mp h)) (iblk0 V c 0 ⟨0, hn⟩) (iblk0 V c 1 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => not3_of_mod0 h0 ((hcond0_1 ⟨n + 1, hn⟩).mp h)) (iblk0 V c 0 ⟨n + 1, hn⟩) (iblk0 V c 1 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (acc0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (acc0 c n (Nat.lt_of_succ_lt hn))

/-- `acc0` at a point with `k = 0`. -/
theorem acc0_A (c : Dev nD) (t : Fin cfg0.N) (h0 : t.val % 4 = 0) :
    acc0 V c t.val t.isLt = sout0_A c (grid0.coords t) (ms0_0 t) (hs0_0 t) (ms0_1 t) (hs0_1 t) (ms0_2 t) (hs0_2 t) scM0 (Memref.isWhole_whole _) ((hcond0_0 t).mpr h0) (fun h => not3_of_mod0 h0 ((hcond0_1 t).mp h)) (iblk0 V c 0 t) (iblk0 V c 1 t) := by
  obtain ⟨n, hn⟩ := t
  cases n with
  | zero => exact rfl
  | succ n => exact (dif_pos h0).trans rfl

/-- `acc0` at a point with `k ∈ {1, 2}`: over what the point before left. -/
theorem acc0_B (c : Dev nD) (t : Fin cfg0.N) (h0 : ¬t.val % 4 = 0) (h1 : ¬t.val % 4 = 3) :
    acc0 V c t.val t.isLt = sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `acc0` at a point with `k = 3`: over what the point before left. -/
theorem acc0_C (c : Dev nD) (t : Fin cfg0.N) (h0 : ¬t.val % 4 = 0) (h1 : t.val % 4 = 3) :
    acc0 V c t.val t.isLt = sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's staging buffer holds after the body at point `t`: where `k = 3` the stored block (the thresholded
    accumulator); elsewhere the window is idle and this value is never consulted. -/
def outAt0 (c : Dev nD) (t : Fin cfg0.N) : Vec F S1024x1024 .f32 :=
  if h1 : t.val % 4 = 3 then
    out0_C_2 c (grid0.coords t) (ms0_0 t) (hs0_0 t) (ms0_1 t) (hs0_1 t) (ms0_2 t) (hs0_2 t) scM0 (Memref.isWhole_whole _) (fun h => not0_of_mod3 h1 ((hcond0_0 t).mp h)) ((hcond0_1 t).mpr h1) (iblk0 V c 0 t) (iblk0 V c 1 t) (acc0 V c (t.val - 1) (Nat.lt_of_le_of_lt (Nat.sub_le _ _) t.isLt))
  else VO0_2.read (Elt F) VO0_2.junk

theorem outAt0_C (c : Dev nD) (t : Fin cfg0.N) (h1 : t.val % 4 = 3) :
    outAt0 V c t = out0_C_2 c (grid0.coords t) (ms0_0 t) (hs0_0 t) (ms0_1 t) (hs0_1 t) (ms0_2 t) (hs0_2 t) scM0 (Memref.isWhole_whole _) (fun h => not0_of_mod3 h1 ((hcond0_0 t).mp h)) ((hcond0_1 t).mpr h1) (iblk0 V c 0 t) (iblk0 V c 1 t) (acc0 V c (t.val - 1) (Nat.lt_of_le_of_lt (Nat.sub_le _ _) t.isLt)) :=
  dif_pos h1

/-! ## The region invariant -/

/-- The invariant before position `n`: before the first point what the launch hands over (the accumulator at anything);
    afterwards the accumulator at what the point before left, beside the untouched scoped buffers and the generator
    register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data -/

/-- The proof data of region 0 on core `c`: the arrays as the region finds them; after the body each factor's buffer at
    its block and the output's at `outAt0`; the invariant `PhiS0`; nothing owed; the two factor windows read ONE array,
    each holding half of it, the output's array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem q0_eq (c : Dev nD) (w : Fin cfg0.W) : (dat0 V c).q w = (match w with | ⟨0, _⟩ => fullShare.left | ⟨1, _⟩ => fullShare.right | ⟨2, _⟩ => fullShare) := by
  dsimp only [dat0]

theorem owed0_eq (c : Dev nD) (t) : (dat0 V c).owed t = 0 := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

/-- Each factor's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The factors' memrefs hold their blocks; `t % 4` says which case the point is in; the
    invariant hands the body the accumulator at what the point before left (at anything at the first point) and takes
    it back at this point's contents; the untouched scoped buffers, the generator register and the core's debts pass
    through; where `k ≠ 3` the output's buffer is handed back as found, where `k = 3` at the stored block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := not3_of_mod0 h0
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [acc0_A V c t h0]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A _ _ _ _ _ _ _ _ _ _ _ _ _ _)
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A _ _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2, outAt0_C V c t h1]
      rw [acc0_C V c t h0 h1]
      unfold out0_C_2 sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 _ _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [acc0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.R1Runs.lean ====
/- Region 1 (the fused second product): what its three control cases share. The block of each window at a
   grid point, the two branch conditions of the body in closed form over the grid, where the output window is
   idle, the staging and accumulator memrefs, and the region invariant split into the accumulator, the other
   scoped buffers and the generator register. -/
import proofs.«160133_j25744033972455_2_alg».proof.Proof.Gen.Kernel.Launch
import proofs.«160133_j25744033972455_2_alg».proof.Proof.Gen.Kernel.Skeleton
import proofs.«160133_j25744033972455_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved since the fetch), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved since the fetch), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved since the fetch), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved since the fetch), for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved since the fetch), for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional of the body (reset the accumulator): the reduction coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 4): the reduction coordinate is the point's residue mod 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional of the body (combine and store the output block): the reduction coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where the reduction coordinate is 0 the output window is idle: the body stores nothing into it there, -/
theorem idleAt1_5_A : ∀ t : Fin cfg1.N, cond1_0 (grid1.coords t) → ¬cond1_1 (grid1.coords t) → cfg1.idle 5 (grid1.coords t) = true := by decide +kernel
/-- and its block is not written back there. -/
theorem noFlush1_5_A : ∀ t : Fin cfg1.N, cond1_0 (grid1.coords t) → ¬cond1_1 (grid1.coords t) → (cfg1.win 5).flush t = false := by decide +kernel
/-- Where the reduction coordinate is 1 or 2 the output window is idle, -/
theorem idleAt1_5_B : ∀ t : Fin cfg1.N, ¬cond1_0 (grid1.coords t) → ¬cond1_1 (grid1.coords t) → cfg1.idle 5 (grid1.coords t) = true := by decide +kernel
/-- and not written back. -/
theorem noFlush1_5_B : ∀ t : Fin cfg1.N, ¬cond1_0 (grid1.coords t) → ¬cond1_1 (grid1.coords t) → (cfg1.win 5).flush t = false := by decide +kernel
/-- Where the reduction coordinate is 3 the output window is live: the body stores its block. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated (the choice does not matter). -/
abbrev VO1_5 : View sig .tc .vmem S1024x1024 .f32 := (Memref.whole cc1_stg5_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows and carried from point to point. -/
abbrev scM1 : Memref sig .tc .vmem S1024x1024 .f32 := Memref.whole cc1_scratch0
/-- The same as a view: what it holds is stated through it. -/
abbrev VS1 : View sig .tc .vmem S1024x1024 .f32 := scM1.view

/-! ## The region invariant, split -/

/-- The core's scoped buffers that are neither staging buffers of this region nor its accumulator — the other
    region's staging buffers and its accumulator —, each whole at some contents. The body touches none of them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region invariant gives the accumulator at some contents, the other scoped buffers and the generator register, -/
theorem PhiA1_split (c : Dev nD) :
    (Pipeline.ΦA spec1 c : sProp 𝕄)
      ⊢ iprop(iprop((∃ d, owns (c : Thread nD τ) scM1 fullShare d) ∗ rest1 (F := F) c) ∗ (∃ r, prngReg c r)) := by
  unfold Pipeline.ΦA; rw [scopedRest1_eq]; unfold rest1; simp only [scM1, owns_whole]
  iintro ⟨⟨H0, H1, H2, H3, H4, H5, H6, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    iexact H6
  iexact Hg

/-- and takes them back. -/
theorem PhiA1_join (c : Dev nD) :
    iprop(iprop((∃ d, owns (c : Thread nD τ) scM1 fullShare d) ∗ rest1 (F := F) c) ∗ (∃ r, prngReg c r))
      ⊢ (Pipeline.ΦA spec1 c : sProp 𝕄) := by
  unfold Pipeline.ΦA; rw [scopedRest1_eq]; unfold rest1; simp only [scM1, owns_whole]
  iintro ⟨⟨HS, H0, H1, H2, H3, H4, H5, H6⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iexact Hg

end Cert.Kernel.Hand

end
-- ==== Proof.K.R1RunA.lean ====
/- Region 1, the body where the reduction coordinate is 0: the accumulator is reset to zero, then the product of the
   two operand blocks is added to it; the output block is not touched. -/
import proofs.«160133_j25744033972455_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

set_option maxHeartbeats 1000000 in
/-- Where the first conditional is taken and the second is not: on whole memrefs, the two operand blocks at
    contents `x0`, `x1` and the accumulator at anything, the body runs to the continuation holding the operand blocks
    as they were and the accumulator with the pieces `LS0` written (last first) — the pieces are the witness the run
    finds. The other windows' memrefs are not accessed. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8 arg9 harg9) K } := by
  refine ⟨?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R1RunB.lean ====
/- Region 1, the body where the reduction coordinate is 1 or 2: the product of the two operand blocks is added to
   the accumulator; the output block is not touched. -/
import proofs.«160133_j25744033972455_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

set_option maxHeartbeats 1000000 in
/-- Where neither conditional is taken: on whole memrefs, the two operand blocks at contents `x0`, `x1` and the
    accumulator at what the point before left (`xs0`), the body runs to the continuation holding the operand blocks as
    they were and the accumulator with the pieces `LS0` written (last first). -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S1024x1024 .f32) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs0
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8 arg9 harg9) K } := by
  refine ⟨?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R1RunC.lean ====
/- Region 1, the body where the reduction coordinate is 3: the last product is added to the accumulator, which is
   then thresholded and combined with the three other input blocks into the output block. -/
import proofs.«160133_j25744033972455_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

set_option maxHeartbeats 1000000 in
/-- Where the second conditional is taken and the first is not: on whole memrefs, the five input blocks at contents
    `x0` … `x4`, the output block at anything and the accumulator at what the point before left (`xs0`), the body runs to
    the continuation holding the input blocks as they were, the output block with the pieces `L5` written and the
    accumulator with the pieces `LS0` written (last first). -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8 arg9 harg9) K } := by
  refine ⟨?_, ?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.K.R1Frame.lean ====
/- Region 1, the body side: what the accumulator holds after each grid point (a recursion along the grid: reset
   where the reduction coordinate is 0, the previous value plus a product elsewhere), what the output window's
   staging buffer holds where the reduction coordinate is 3, the proof data of the pipeline, and the body obligation
   at every point from the three runs. -/
import proofs.«160133_j25744033972455_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each case leaves in the accumulator and in the output block -/

/-- Reduction coordinate 0: the pieces written into the accumulator tile it, so they cover it. -/
theorem scover1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S1024x1024 .f32) (y : S1024x1024.Idx) :
    ∃ pc ∈ (kernelRun1_A c i arg3 harg3 arg4 harg4 arg5 harg5 arg6 harg6 arg7 harg7 arg8 harg8 arg9 harg9 hc0 hc1 x0 x1).1, y ∈ pc.1.set :=
  View.cover_of_tiledL (kernelRun1_A c i arg3 harg3 arg4 harg4 arg5 harg5 arg6 harg6 arg7 harg7 arg8 harg8 arg9 harg9 hc0 hc1 x0 x1).1 S1024x1024.size (by sl_kernel_rfl) y

/-- What the accumulator then holds: the pieces read back. -/
def sout1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S1024x1024 .f32) : Vec F S1024x1024 .f32 :=
  VS1.read (Elt F) (VS1.writes (Elt F) VS1.junk (kernelRun1_A c i arg3 harg3 arg4 harg4 arg5 harg5 arg6 harg6 arg7 harg7 arg8 harg8 arg9 harg9 hc0 hc1 x0 x1).1)

/-- Reduction coordinate 1 or 2: the pieces written into the accumulator tile it, so they cover it. -/
theorem scover1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S1024x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 xs0).1, y ∈ pc.1.set :=
  View.cover_of_tiledL (kernelRun1_B c i arg3 harg3 arg4 harg4 arg5 harg5 arg6 harg6 arg7 harg7 arg8 harg8 arg9 harg9 hc0 hc1 x0 x1 xs0).1 S1024x1024.size (by sl_kernel_rfl) y

/-- What the accumulator then holds: the pieces read back. -/
def sout1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S1024x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 arg9 harg9 hc0 hc1 x0 x1 xs0).1)

/-- Reduction coordinate 3: the pieces written into the accumulator tile it, so they cover it. -/
theorem scover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y

/-- What the accumulator then holds: the pieces read back. -/
def sout1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-- Reduction coordinate 3: the piece stored into the output block tiles it, so it covers it. -/
theorem cover1_C_5 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y

/-- What the output block then holds: the piece read back. -/
def out1_C_5 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-! ## The accumulation along the grid -/

/-- What the accumulator holds after the body at position `n`: the case of `n`'s reduction coordinate (`n % 4`), run at
    the point's memrefs and input blocks, over what position `n - 1` left except where the coordinate is 0 (a reset). -/
def acc1 (c : Dev nD) : (n : ℕ) → n < cfg1.N → Vec F S1024x1024 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 4 = 0 then
      if h1 : (n + 1) % 4 = 3 then
        False.elim (by omega)
      else
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (acc1 c n (Nat.lt_of_succ_lt hn))

/-- At a point with reduction coordinate 0. -/
theorem acc1_A (c : Dev nD) (t : Fin cfg1.N) (h0 : t.val % 4 = 0) (h1 : ¬t.val % 4 = 3) :
    acc1 V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

/-- At a point with reduction coordinate 1 or 2: over what the point before left. -/
theorem acc1_B (c : Dev nD) (t : Fin cfg1.N) (h0 : ¬t.val % 4 = 0) (h1 : ¬t.val % 4 = 3) :
    acc1 V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point with reduction coordinate 3: over what the point before left. -/
theorem acc1_C (c : Dev nD) (t : Fin cfg1.N) (h0 : ¬t.val % 4 = 0) (h1 : t.val % 4 = 3) :
    acc1 V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: where the reduction coordinate is 3
    the stored block; elsewhere the body stores nothing and the value is a placeholder nothing reads (the window is
    idle there and not written back). -/
def out1 (c : Dev nD) (t : Fin cfg1.N) : Vec F S1024x1024 .f32 :=
  if h1 : t.val % 4 = 3 then
    if h0 : t.val % 4 = 0 then VO1_5.read (Elt F) VO1_5.junk
    else out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (acc1 V c (t.val - 1) (Nat.lt_of_le_of_lt (Nat.sub_le _ _) t.isLt))
  else VO1_5.read (Elt F) VO1_5.junk

theorem out1_C (c : Dev nD) (t : Fin cfg1.N) (h0 : ¬t.val % 4 = 0) (h1 : t.val % 4 = 3) :
    out1 V c t = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (acc1 V c (t.val - 1) (Nat.lt_of_le_of_lt (Nat.sub_le _ _) t.isLt)) :=
  (dif_pos h1).trans (dif_neg h0)

/-! ## The invariant along the grid -/

/-- The region invariant before position `n`: before the first point the region's own (the accumulator at anything);
    afterwards the accumulator at what the point before left, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-! ## The pipeline's proof data -/

/-- The proof data of this pipeline on core `c`: the arrays as the region finds them; after the body at point `t`
    each input window's buffer at its block and the output window's at `out1`; the invariant `PhiS1`; nothing owed;
    full shares, except that the two windows reading one array hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ t := PhiS1 V c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]

theorem q1_eq (c : Dev nD) (w : Fin cfg1.W) : (dat1 V c).q w = (match w with | ⟨0, _⟩ => fullShare | ⟨1, _⟩ => fullShare.left | ⟨2, _⟩ => fullShare | ⟨3, _⟩ => fullShare | ⟨4, _⟩ => fullShare.right | ⟨5, _⟩ => fullShare) := by
  dsimp only [dat1]

theorem owed1_eq (c : Dev nD) (t) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The input windows' memrefs hold their blocks; the point's reduction coordinate says which
    case it is in; the invariant hands the body the accumulator at what the point before left (at anything at the
    first point) and takes it back at this point's contents, the other scoped buffers and the generator register riding
    along; where the output window is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [acc1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, H5⟩
      ihave HΦ' := (PhiA1_split (F := F) c) $$ HΦ
      icases HΦ' with ⟨⟨HS0, Hr⟩, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, H5⟩
      iapply ((kernelRun1_A c (grid1.coords t) _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5, out1_C V c t h0 h1]
      rw [acc1_C V c t h0 h1]
      unfold out1_C_5 sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [acc1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, H5⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨⟨HS0, Hr⟩, Hg⟩
  iapply (PhiA1_join (F := F) c)
  isplitr [Hg]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Run.lean ====
/-
  The two kernel regions of @main as segments of one run, and the run itself.

  Between two segments a TensorCore holds every unscoped buffer whole at a known valuation: the launch
  memory; then the host prefix applied to it (`W1`); then, after the first region, the same with its output
  array replaced by what the region's write-backs leave (`W2`); then likewise after the second (`W3`).
  A region takes its windows' arrays out of that valuation and puts them back.  In each region two input
  windows read ONE array (the first: both matmul operands are the adjacency matrix; the second: the
  thresholded square is both a matmul operand and a summand), so that array's full share is dealt to the
  two windows in halves at entry and joined again at exit, both halves still at the entry contents since
  an input window's array is never written.
-/
import proofs.«160133_j25744033972455_2_alg».proof.Proof.K.R0Frame
import proofs.«160133_j25744033972455_2_alg».proof.Proof.K.R1Frame
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## Region 0: three windows on two arrays -/

/-- The buffers behind region 0's windows: the rounded adjacency matrix (read by windows 0 and 1) and the output. -/
theorem arrImg0 : (Finset.univ.image (Pipeline.arrRef spec0) : Finset (Ref sig .tc)) = {main_v27, main_v28} := by decide

theorem share0_0 (c : Dev nD) : (dat0 V c).share 0 = fullShare.left := by
  unfold Dat.share; rw [if_neg (by decide), q0_eq]
theorem share0_1 (c : Dev nD) : (dat0 V c).share 1 = fullShare.right := by
  unfold Dat.share; rw [if_neg (by decide), q0_eq]
theorem share0_2 (c : Dev nD) : (dat0 V c).share 2 = fullShare := by
  unfold Dat.share; rw [if_pos (by decide)]

/-- The windows' arrays of region 0 at contents `G`, one by one, each a whole buffer. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v27) ↦{fullShare.left} G 0) ∗ (((c : Thread nD τ).loc main_v27) ↦{fullShare.right} G 1)
          ∗ (((c : Thread nD τ).loc main_v28) ↦{fullShare} G 2)) := by
  have h : ((dat0 V c).arrays G : sProp 𝕄)
      = bigSep Finset.univ fun w : Fin cfg0.W => (((c : Thread nD τ).loc (Pipeline.arrRef spec0 w)) ↦{(dat0 V c).share w} G w : sProp 𝕄) := by
    unfold Dat.arrays; exact bigSep_congr fun w _ => by rw [(arr_whole0 w).set_eq_univ]
  rw [h, bigSep_W0, share0_0, share0_1, share0_2]

/-- ENTRY: the two buffers whole at the entry contents are the three windows' arrays, the shared one in halves. -/
theorem hsplit0 (c : Dev nD) :
    (Pipeline.arrBufs spec0 c (V c) : sProp 𝕄) ⊢ (dat0 V c).arrays fun w => (dat0 V c).arrAt w 0 := by
  rw [arrays0_eq]
  unfold Pipeline.arrBufs
  rw [arrImg0, bigSep_insert (by decide), bigSep_singleton]
  rw [show (dat0 V c).arrAt 0 0 = V c main_v27 from A_eq0 V c 0, show (dat0 V c).arrAt 1 0 = V c main_v27 from A_eq0 V c 1,
    show (dat0 V c).arrAt 2 0 = V c main_v28 from A_eq0 V c 2]
  show iprop((((c : Thread nD τ).loc main_v27) ↦{fullShare} V c main_v27) ∗ (((c : Thread nD τ).loc main_v28) ↦{fullShare} V c main_v28)) ⊢ _
  iintro ⟨H27, H28⟩
  ihave H := (pointsTo_share (PosShare.mem_left_op_right fullShare)).1 $$ H27
  icases H with ⟨Hl, Hr⟩
  isplitl [Hl]; · iexact Hl
  isplitl [Hr]; · iexact Hr
  iexact H28

/-- EXIT: the input windows' halves, still at the entry contents, join; the output's buffer holds what the write-backs left. -/
theorem hjoin0 (c : Dev nD) :
    ((dat0 V c).arrays fun w => (dat0 V c).arrAt w cfg0.N : sProp 𝕄)
      ⊢ iprop((((c : Thread nD τ).loc main_v27) ↦{fullShare} V c main_v27) ∗ (((c : Thread nD τ).loc main_v28) ↦{fullShare} (dat0 V c).arrAt 2 cfg0.N)) := by
  rw [arrays0_eq]
  rw [show (dat0 V c).arrAt 0 cfg0.N = V c main_v27 from ((dat0 V c).arrAt_in 0 rfl _).trans (A_eq0 V c 0),
    show (dat0 V c).arrAt 1 cfg0.N = V c main_v27 from ((dat0 V c).arrAt_in 1 rfl _).trans (A_eq0 V c 1)]
  iintro ⟨Hl, Hr, H28⟩
  isplitl [Hl Hr]
  · iapply (pointsTo_share (PosShare.mem_left_op_right fullShare)).2
    isplitl [Hl]; · iexact Hl
    iexact Hr
  iexact H28

/-- ENTRY of region 0 from every unscoped buffer at `V`: its windows' arrays and the rest. -/
theorem entry0 (c : Dev nD) :
    (unscopedBufs c (V c) : sProp 𝕄) ⊢ iprop(((dat0 V c).arrays fun w => (dat0 V c).arrAt w 0) ∗ Pipeline.unscopedRest spec0 c (V c)) := by
  rw [Pipeline.unscopedBufs_split₀ cfgs (0 : Fin 2) winFacts₀0.arr_unscoped c (V c)]
  exact sep_mono (hsplit0 V c) .rfl

/-- EXIT of region 0 to every unscoped buffer at any valuation that has the output array at what the write-backs
    left and agrees with the entry valuation elsewhere. -/
theorem exit0 (c : Dev nD) (V' : (b : Ref sig .tc) → Buf (Elt F) ((c : Thread nD τ).loc b))
    (h28 : V' main_v28 = (dat0 V c).arrAt 2 cfg0.N) (hrest : ∀ b, b ≠ main_v28 → V' b = V c b) :
    iprop(((dat0 V c).arrays fun w => (dat0 V c).arrAt w cfg0.N) ∗ Pipeline.unscopedRest spec0 c (V c)) ⊢ (unscopedBufs c V' : sProp 𝕄) := by
  rw [Pipeline.unscopedBufs_split₀ cfgs (0 : Fin 2) winFacts₀0.arr_unscoped c V']
  refine sep_mono ((hjoin0 V c).trans (Entails.of_eq ?_)) (Entails.of_eq ?_)
  · unfold Pipeline.arrBufs
    rw [show (Finset.univ.image (Pipeline.arrRef (cfgs (0 : Fin 2)).spec) : Finset (Ref sig .tc)) = {main_v27, main_v28} from arrImg0,
      bigSep_insert (by decide), bigSep_singleton, h28, hrest main_v27 (by decide)]
    rfl
  · unfold Pipeline.unscopedRest
    refine bigSep_congr fun b hb => ?_
    rw [hrest b (fun e => (Finset.mem_sdiff.mp hb).2 (by rw [e, arrImg0]; decide))]

/-! ## Region 1: six windows on five arrays -/

/-- The buffers behind region 1's windows: the rounded adjacency matrix, the thresholded square (windows 1 and 4),
    the edge counts, the adjacency matrix, and the output. -/
theorem arrImg1 : (Finset.univ.image (Pipeline.arrRef spec1) : Finset (Ref sig .tc)) = {main_v27, main_v28, main_v26, main_v24, main_v29} := by decide

theorem share1_0 (c : Dev nD) : (dat1 V c).share 0 = fullShare := by
  unfold Dat.share; rw [if_neg (by decide), q1_eq]
theorem share1_1 (c : Dev nD) : (dat1 V c).share 1 = fullShare.left := by
  unfold Dat.share; rw [if_neg (by decide), q1_eq]
theorem share1_2 (c : Dev nD) : (dat1 V c).share 2 = fullShare := by
  unfold Dat.share; rw [if_neg (by decide), q1_eq]
theorem share1_3 (c : Dev nD) : (dat1 V c).share 3 = fullShare := by
  unfold Dat.share; rw [if_neg (by decide), q1_eq]
theorem share1_4 (c : Dev nD) : (dat1 V c).share 4 = fullShare.right := by
  unfold Dat.share; rw [if_neg (by decide), q1_eq]
theorem share1_5 (c : Dev nD) : (dat1 V c).share 5 = fullShare := by
  unfold Dat.share; rw [if_pos (by decide)]

set_option maxHeartbeats 4000000 in
/-- The windows' arrays of region 1 at contents `G`, one by one, each a whole buffer. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v27) ↦{fullShare} G 0) ∗ (((c : Thread nD τ).loc main_v28) ↦{fullShare.left} G 1)
          ∗ (((c : Thread nD τ).loc main_v26) ↦{fullShare} G 2) ∗ (((c : Thread nD τ).loc main_v24) ↦{fullShare} G 3)
          ∗ (((c : Thread nD τ).loc main_v28) ↦{fullShare.right} G 4) ∗ (((c : Thread nD τ).loc main_v29) ↦{fullShare} G 5)) := by
  have h : ((dat1 V c).arrays G : sProp 𝕄)
      = bigSep Finset.univ fun w : Fin cfg1.W => (((c : Thread nD τ).loc (Pipeline.arrRef spec1 w)) ↦{(dat1 V c).share w} G w : sProp 𝕄) := by
    unfold Dat.arrays; exact bigSep_congr fun w _ => by rw [(arr_whole1 w).set_eq_univ]
  rw [h, bigSep_W1, share1_0, share1_1, share1_2, share1_3, share1_4, share1_5]

/-- ENTRY: the five buffers whole at the entry contents are the six windows' arrays, the shared one in halves. -/
theorem hsplit1 (c : Dev nD) :
    (Pipeline.arrBufs spec1 c (V c) : sProp 𝕄) ⊢ (dat1 V c).arrays fun w => (dat1 V c).arrAt w 0 := by
  rw [arrays1_eq]
  unfold Pipeline.arrBufs
  rw [arrImg1, bigSep_insert (by decide), bigSep_insert (by decide), bigSep_insert (by decide), bigSep_insert (by decide), bigSep_singleton]
  rw [show (dat1 V c).arrAt 0 0 = V c main_v27 from A_eq1 V c 0, show (dat1 V c).arrAt 1 0 = V c main_v28 from A_eq1 V c 1,
    show (dat1 V c).arrAt 2 0 = V c main_v26 from A_eq1 V c 2, show (dat1 V c).arrAt 3 0 = V c main_v24 from A_eq1 V c 3,
    show (dat1 V c).arrAt 4 0 = V c main_v28 from A_eq1 V c 4, show (dat1 V c).arrAt 5 0 = V c main_v29 from A_eq1 V c 5]
  show iprop((((c : Thread nD τ).loc main_v27) ↦{fullShare} V c main_v27) ∗ (((c : Thread nD τ).loc main_v28) ↦{fullShare} V c main_v28)
    ∗ (((c : Thread nD τ).loc main_v26) ↦{fullShare} V c main_v26) ∗ (((c : Thread nD τ).loc main_v24) ↦{fullShare} V c main_v24)
    ∗ (((c : Thread nD τ).loc main_v29) ↦{fullShare} V c main_v29)) ⊢ _
  iintro ⟨H27, H28, H26, H24, H29⟩
  ihave H := (pointsTo_share (PosShare.mem_left_op_right fullShare)).1 $$ H28
  icases H with ⟨Hl, Hr⟩
  isplitl [H27]; · iexact H27
  isplitl [Hl]; · iexact Hl
  isplitl [H26]; · iexact H26
  isplitl [H24]; · iexact H24
  isplitl [Hr]; · iexact Hr
  iexact H29

/-- EXIT: every input window's array still at the entry contents, the shared one's halves joined; the output's buffer
    holds what the write-backs left. -/
theorem hjoin1 (c : Dev nD) :
    ((dat1 V c).arrays fun w => (dat1 V c).arrAt w cfg1.N : sProp 𝕄)
      ⊢ iprop((((c : Thread nD τ).loc main_v27) ↦{fullShare} V c main_v27) ∗ (((c : Thread nD τ).loc main_v28) ↦{fullShare} V c main_v28)
          ∗ (((c : Thread nD τ).loc main_v26) ↦{fullShare} V c main_v26) ∗ (((c : Thread nD τ).loc main_v24) ↦{fullShare} V c main_v24)
          ∗ (((c : Thread nD τ).loc main_v29) ↦{fullShare} (dat1 V c).arrAt 5 cfg1.N)) := by
  rw [arrays1_eq]
  rw [show (dat1 V c).arrAt 0 cfg1.N = V c main_v27 from ((dat1 V c).arrAt_in 0 rfl _).trans (A_eq1 V c 0),
    show (dat1 V c).arrAt 1 cfg1.N = V c main_v28 from ((dat1 V c).arrAt_in 1 rfl _).trans (A_eq1 V c 1),
    show (dat1 V c).arrAt 2 cfg1.N = V c main_v26 from ((dat1 V c).arrAt_in 2 rfl _).trans (A_eq1 V c 2),
    show (dat1 V c).arrAt 3 cfg1.N = V c main_v24 from ((dat1 V c).arrAt_in 3 rfl _).trans (A_eq1 V c 3),
    show (dat1 V c).arrAt 4 cfg1.N = V c main_v28 from ((dat1 V c).arrAt_in 4 rfl _).trans (A_eq1 V c 4)]
  iintro ⟨H27, Hl, H26, H24, Hr, H29⟩
  isplitl [H27]; · iexact H27
  isplitl [Hl Hr]
  · iapply (pointsTo_share (PosShare.mem_left_op_right fullShare)).2
    isplitl [Hl]; · iexact Hl
    iexact Hr
  isplitl [H26]; · iexact H26
  isplitl [H24]; · iexact H24
  iexact H29

theorem entry1 (c : Dev nD) :
    (unscopedBufs c (V c) : sProp 𝕄) ⊢ iprop(((dat1 V c).arrays fun w => (dat1 V c).arrAt w 0) ∗ Pipeline.unscopedRest spec1 c (V c)) := by
  rw [Pipeline.unscopedBufs_split₀ cfgs (1 : Fin 2) winFacts₀1.arr_unscoped c (V c)]
  exact sep_mono (hsplit1 V c) .rfl

theorem exit1 (c : Dev nD) (V' : (b : Ref sig .tc) → Buf (Elt F) ((c : Thread nD τ).loc b))
    (h29 : V' main_v29 = (dat1 V c).arrAt 5 cfg1.N) (hrest : ∀ b, b ≠ main_v29 → V' b = V c b) :
    iprop(((dat1 V c).arrays fun w => (dat1 V c).arrAt w cfg1.N) ∗ Pipeline.unscopedRest spec1 c (V c)) ⊢ (unscopedBufs c V' : sProp 𝕄) := by
  rw [Pipeline.unscopedBufs_split₀ cfgs (1 : Fin 2) winFacts₀1.arr_unscoped c V']
  refine sep_mono ((hjoin1 V c).trans (Entails.of_eq ?_)) (Entails.of_eq ?_)
  · unfold Pipeline.arrBufs
    rw [show (Finset.univ.image (Pipeline.arrRef (cfgs (1 : Fin 2)).spec) : Finset (Ref sig .tc)) = {main_v27, main_v28, main_v26, main_v24, main_v29} from arrImg1,
      bigSep_insert (by decide), bigSep_insert (by decide), bigSep_insert (by decide), bigSep_insert (by decide), bigSep_singleton,
      h29, hrest main_v27 (by decide), hrest main_v28 (by decide), hrest main_v26 (by decide), hrest main_v24 (by decide)]
    rfl
  · unfold Pipeline.unscopedRest
    refine bigSep_congr fun b hb => ?_
    rw [hrest b (fun e => (Finset.mem_sdiff.mp hb).2 (by rw [e, arrImg1]; decide))]

end Arrays

/-! # The run: @main's segments from the launch to the return -/

variable (m : (ℓ : Loc nD τ sig) → Buf (Elt F) ℓ) (ρ : Dev nD → PrngReg)

/-- Core `c`'s buffers at launch, -/
abbrev W0 (c : Dev nD) : Valuation τ sig (Elt F) := fun b => m (c, b)
/-- after the host prefix (region 0's entry), -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- after region 0: its output array at what the write-backs of the thresholded square's blocks leave (region 1's entry), -/
def W2 (c : Dev nD) : Valuation τ sig (Elt F) :=
  Function.update (W1 m c) (Proc.devRef .tc main_v28) ((dat0 (V1 m) c).arrAt 2 cfg0.N)
abbrev V2 : (c : Dev nD) → (b : Ref sig .tc) → Buf (Elt F) ((c : Thread nD τ).loc b) := fun c b => W2 m c b
/-- after region 1: its output array at what the write-backs of the combined blocks leave. -/
def W3 (c : Dev nD) : Valuation τ sig (Elt F) :=
  Function.update (W2 m c) (Proc.devRef .tc main_v29) ((dat1 (V2 m) c).arrAt 5 cfg1.N)
abbrev V3 : (c : Dev nD) → (b : Ref sig .tc) → Buf (Elt F) ((c : Thread nD τ).loc b) := fun c b => W3 m c b

theorem V2_v28 (c : Dev nD) : V2 m c main_v28 = (dat0 (V1 m) c).arrAt 2 cfg0.N := by
  show Function.update _ _ _ _ = _; exact Function.update_self ..
theorem V2_of_ne (c : Dev nD) (b : Ref sig .tc) (h : b ≠ main_v28) : V2 m c b = V1 m c b := by
  show Function.update _ _ _ _ = _
  exact Function.update_of_ne (StableHlo.devRef_ne_of_ne h) ..
theorem V3_v29 (c : Dev nD) : V3 m c main_v29 = (dat1 (V2 m) c).arrAt 5 cfg1.N := by
  show Function.update _ _ _ _ = _; exact Function.update_self ..
theorem V3_of_ne (c : Dev nD) (b : Ref sig .tc) (h : b ≠ main_v29) : V3 m c b = V2 m c b := by
  show Function.update _ _ _ _ = _
  exact Function.update_of_ne (StableHlo.devRef_ne_of_ne h) ..

/-- The references the host prefix writes. -/
abbrev hostW : List (Ref sig .tc) := [main_v0, main_v1, main_v2, main_v3, main_cst, main_v4, main_v5, main_v6, main_v7, main_cst_0, main_v8, main_c, main_v9, main_v10, main_c_1, main_v11, main_v12, main_v13, main_c_2, main_v14, main_v15, main_c_3, main_v16, main_v17, main_v18, main_v19, main_v20, main_v21, main_v22, main_v23, main_v24, main_v25, main_v26, main_v27]

theorem hostOps0_fresh : (hostOps0 : List (HloOp τ sig (Elt F))).Forall fun op => op.fresh = ∅ := by
  simp only [List.Forall]; repeat' constructor

/-- An argument array is written by no host operation and by no region. -/
theorem V3_arg (c : Dev nD) (b : Ref sig .tc) (h29 : b ≠ main_v29) (h28 : b ≠ main_v28)
    (hw : ∀ op ∈ (hostOps0 : List (HloOp τ sig (Elt F))), (Proc.devRef .tc b : DevRef τ sig) ∉ op.writes) :
    V3 m c b = m ((c : Thread nD τ).loc b) :=
  (V3_of_ne m c b h29).trans ((V2_of_ne m c b h28).trans (StableHlo.after_of_forall_not_mem (b := Proc.devRef .tc b) _ _ hw))

/-! ## The proof data family and the thread state -/

abbrev adm : (p : Fin 2) → (pcfgs (F := F) p).Adm := fun p => (cfgs p).toPCfg_adm
/-- Each region's proof data at its own entry contents — a literal match on the region. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun c t => owed0_eq (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry0 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0_eq (V1 m) c 0]
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := exit0 (V1 m) c (V2 m c) (V2_v28 m c) (fun b hb => V2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats m 0 c).owed (Fin.last _) = 0 from owed0_eq (V1 m) c _]
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun c t => owed1_eq (V2 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1_eq (V2 m) c 0]
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := exit1 (V2 m) c (V3 m c) (V3_v29 m c) (fun b hb => V3_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    rw [show (pdats m 1 c).owed (Fin.last _) = 0 from owed1_eq (V2 m) c _]
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and in
    every final state each unscoped buffer holds the last valuation's contents: the result array what the second region's
    write-backs leave, every argument array its launch contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.K.Frame.lean ====
/-
  The run read at the result and at the arguments: in every final state the result array holds what the second
  region's write-backs leave and each argument array its launch contents — no host operation writes an argument
  (each writes its own result buffer) and neither region has an argument among its output windows.
-/
import proofs.«160133_j25744033972455_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No operation of the host prefix writes the first argument, -/
theorem keeps_arg0 : ∀ op ∈ (hostOps0 : List (HloOp τ sig (Elt F))), (Proc.devRef .tc main_arg0 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- nor the second, -/
theorem keeps_arg1 : ∀ op ∈ (hostOps0 : List (HloOp τ sig (Elt F))), (Proc.devRef .tc main_arg1 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- nor the third. -/
theorem keeps_arg2 : ∀ op ∈ (hostOps0 : List (HloOp τ sig (Elt F))), (Proc.devRef .tc main_arg2 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- THE RUN, read at the result and the arguments. -/
theorem run_post : θ_run defs (onTc (τ := τ) (main (F := F))) ⟨m, fun _ => 0, ρ⟩ (fun r => ∀ c : Dev nD,
      r.2.mem ((c.tc : Thread nD τ).loc main_v29) = V3 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v29 (by decide)),
     (h c _ (mem_uc main_arg0 (by decide))).trans (V3_arg m c main_arg0 (by decide) (by decide) (keeps_arg0 (F := F))),
     (h c _ (mem_uc main_arg1 (by decide))).trans (V3_arg m c main_arg1 (by decide) (by decide) (keeps_arg1 (F := F))),
     (h c _ (mem_uc main_arg2 (by decide))).trans (V3_arg m c main_arg2 (by decide) (by decide) (keeps_arg2 (F := F)))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_post m ρ)

end Cert.Kernel.Hand

end
-- ==== Proof.KI.R0Runs.lean ====
import proofs.«160133_j25744033972455_2_alg».proof.Proof.Gen.KernelIdeal.Launch
import proofs.«160133_j25744033972455_2_alg».proof.Proof.Gen.KernelIdeal.Skeleton
import proofs.«160133_j25744033972455_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the thresholded product `thr(A·A)`, accumulated over the reduction axis

The grid is `4 × 4 × 4`; the last coordinate `k = t % 4` is the reduction axis. At `k = 0` the accumulator is
zeroed, at every `k` one block product is added to it, at `k = 3` the thresholded accumulator is stored to the
output block. Everything here is stated at the buffer contents `V` the region is entered with. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point, for any proof data whose array is `V`'s and
    whose body leaves the block in place: the window is an input, never idle, and its blocks tile the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right factor's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- The first conditional's test: the reduction coordinate is `0`. -/
abbrev cond0_0 (i : grid0.Coords) : Prop := (Scalar.cmpi .ne (Scalar.extui (Scalar.cmpi .eq (BitVec.ofNat 32 (i 2).val) 0#32)) 0#32) = 1#1
/-- It holds exactly at the points `t ≡ 0 (mod 4)`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test: the reduction coordinate is `3`. -/
abbrev cond0_1 (i : grid0.Coords) : Prop := k0_cond2 i = 1#1
/-- It holds exactly at the points `t ≡ 3 (mod 4)`. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where `k = 0` the output block is not stored: the window is idle and is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Where `k ∈ {1, 2}` likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- Where `k = 3` the output block is stored: the window is live. -/
theorem liveAt0_2_C : ∀ t : Fin cfg0.N, ¬cond0_0 (grid0.coords t) → cond0_1 (grid0.coords t) → cfg0.idle 2 (grid0.coords t) = false := by decide +kernel

/-! ## The staging memrefs and the accumulator -/

/-- One staging buffer of the output window, through which its contents are stated (the choice does not matter:
    a covering list of stores reads back the same through any whole view). -/
abbrev VO0_2 : View sig .tc .vmem S1024x1024 .f32 := (Memref.whole cc0_stg2_0 : Memref sig .tc .vmem S1024x1024 .f32).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S1024x1024 .f32 := Memref.whole cc0_scratch0
/-- The accumulator as a view: what it holds is stated through it. -/
abbrev VS0 : View sig .tc .vmem S1024x1024 .f32 := scM0.view

/-- The core's scoped buffers that region 0 never touches (the other region's staging buffers and accumulator), each
    whole at some contents: they ride along unchanged. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region: the accumulator owned at some contents, the untouched scoped buffers, and the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.KernelIdeal.Hand

end
-- ==== Proof.KI.R0RunA.lean ====
import proofs.«160133_j25744033972455_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE BODY WHERE `k = 0` (first conditional taken, second not). On whole staging memrefs — the two factors' at their
    blocks `x0`, `x1`, the output's at contents `xi2` that are handed back untouched, the accumulator at anything — the
    body runs to the continuation holding the factors' and the output's as they were and the accumulator with the
    pieces `LS0` written (first the zero block, then zero plus the product `x0 · x1`). The pieces are the witness the
    run finds. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_thresh_kernel i arg3 harg3 arg4 harg4 arg5 harg5 arg6 harg6) K } := by
  refine ⟨[], ?_, fun xi2 E K => ?run⟩
  case run =>
    simp only [cc0__matmul_thresh_kernel_eq_skeleton]; unfold cc0__matmul_thresh_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunB.lean ====
import proofs.«160133_j25744033972455_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE BODY WHERE `k ∈ {1, 2}` (neither conditional taken). On whole staging memrefs — the two factors' at their blocks
    `x0`, `x1`, the output's at contents `xi2` that are handed back untouched, the accumulator at what the point before
    left, `xs0` — the body runs to the continuation holding the factors' and the output's as they were and the
    accumulator with the pieces `LS0` written (`xs0` plus the product `x0 · x1`). -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_thresh_kernel i arg3 harg3 arg4 harg4 arg5 harg5 arg6 harg6) K } := by
  refine ⟨[], ?_, fun xi2 E K => ?run⟩
  case run =>
    simp only [cc0__matmul_thresh_kernel_eq_skeleton]; unfold cc0__matmul_thresh_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunC.lean ====
import proofs.«160133_j25744033972455_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- THE BODY WHERE `k = 3` (second conditional taken, first not). On whole staging memrefs — the two factors' at their
    blocks `x0`, `x1`, the output's at anything, the accumulator at what the point before left, `xs0` — the body runs
    to the continuation holding the factors' as they were, the accumulator with the pieces `LS0` written (`xs0` plus the
    product `x0 · x1`) and the output's buffer with the pieces `L2` written (the thresholded accumulator). -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_thresh_kernel i arg3 harg3 arg4 harg4 arg5 harg5 arg6 harg6) K } := by
  refine ⟨?_, ?_, fun E K => ?run⟩
  case run =>
    simp only [cc0__matmul_thresh_kernel_eq_skeleton]; unfold cc0__matmul_thresh_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R0Frame.lean ====
import proofs.«160133_j25744033972455_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the accumulator and the output block hold, point by point, and the body obligation -/

theorem not3_of_mod0 {n : ℕ} (h : n % 4 = 0) : ¬ n % 4 = 3 := by omega
theorem not0_of_mod3 {n : ℕ} (h : n % 4 = 3) : ¬ n % 4 = 0 := by omega

/-! ## The pieces of each case cover their buffers -/

/-- Where `k = 0`: the accumulator's pieces (two whole-block stores) cover it. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What the accumulator holds after the body where `k = 0`: its pieces read back. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0.read (Elt F) (VS0.writes (Elt F) VS0.junk (kernelRun0_A c i arg3 harg3 arg4 harg4 arg5 harg5 arg6 harg6 hc0 hc1 x0 x1).2.1)

/-- Where `k ∈ {1, 2}`: the accumulator's piece (one whole-block store) covers it. -/
theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What the accumulator holds after the body where `k ∈ {1, 2}`. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs0).2.1)

/-- Where `k = 3`: the output block's piece (one whole-block store) covers it. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the output's staging buffer holds after the body where `k = 3`. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_C c i arg3 harg3 arg4 harg4 arg5 harg5 arg6 harg6 hc0 hc1 x0 x1 xs0).1)

/-- Where `k = 3`: the accumulator's piece covers it. -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the accumulator holds after the body where `k = 3`. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs0).2.1)

/-! ## The accumulation -/

/-- THE ACCUMULATION. What the accumulator holds after the body at position `n`: where `n ≡ 0 (mod 4)` the case-`k = 0`
    contents (zero plus the point's block product); elsewhere the case's contents over what position `n - 1` left. -/
def acc0 (c : Dev nD) : (n : ℕ) → n < cfg0.N → Vec F S1024x1024 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => not3_of_mod0 (Nat.zero_mod 4) ((hcond0_1 ⟨0, hn⟩).mp h)) (iblk0 V c 0 ⟨0, hn⟩) (iblk0 V c 1 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => not3_of_mod0 h0 ((hcond0_1 ⟨n + 1, hn⟩).mp h)) (iblk0 V c 0 ⟨n + 1, hn⟩) (iblk0 V c 1 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (acc0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (acc0 c n (Nat.lt_of_succ_lt hn))

/-- `acc0` at a point with `k = 0`. -/
theorem acc0_A (c : Dev nD) (t : Fin cfg0.N) (h0 : t.val % 4 = 0) :
    acc0 V c t.val t.isLt = sout0_A c (grid0.coords t) (ms0_0 t) (hs0_0 t) (ms0_1 t) (hs0_1 t) (ms0_2 t) (hs0_2 t) scM0 (Memref.isWhole_whole _) ((hcond0_0 t).mpr h0) (fun h => not3_of_mod0 h0 ((hcond0_1 t).mp h)) (iblk0 V c 0 t) (iblk0 V c 1 t) := by
  obtain ⟨n, hn⟩ := t
  cases n with
  | zero => exact rfl
  | succ n => exact (dif_pos h0).trans rfl

/-- `acc0` at a point with `k ∈ {1, 2}`: over what the point before left. -/
theorem acc0_B (c : Dev nD) (t : Fin cfg0.N) (h0 : ¬t.val % 4 = 0) (h1 : ¬t.val % 4 = 3) :
    acc0 V c t.val t.isLt = sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `acc0` at a point with `k = 3`: over what the point before left. -/
theorem acc0_C (c : Dev nD) (t : Fin cfg0.N) (h0 : ¬t.val % 4 = 0) (h1 : t.val % 4 = 3) :
    acc0 V c t.val t.isLt = sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's staging buffer holds after the body at point `t`: where `k = 3` the stored block (the thresholded
    accumulator); elsewhere the window is idle and this value is never consulted. -/
def outAt0 (c : Dev nD) (t : Fin cfg0.N) : Vec F S1024x1024 .f32 :=
  if h1 : t.val % 4 = 3 then
    out0_C_2 c (grid0.coords t) (ms0_0 t) (hs0_0 t) (ms0_1 t) (hs0_1 t) (ms0_2 t) (hs0_2 t) scM0 (Memref.isWhole_whole _) (fun h => not0_of_mod3 h1 ((hcond0_0 t).mp h)) ((hcond0_1 t).mpr h1) (iblk0 V c 0 t) (iblk0 V c 1 t) (acc0 V c (t.val - 1) (Nat.lt_of_le_of_lt (Nat.sub_le _ _) t.isLt))
  else VO0_2.read (Elt F) VO0_2.junk

theorem outAt0_C (c : Dev nD) (t : Fin cfg0.N) (h1 : t.val % 4 = 3) :
    outAt0 V c t = out0_C_2 c (grid0.coords t) (ms0_0 t) (hs0_0 t) (ms0_1 t) (hs0_1 t) (ms0_2 t) (hs0_2 t) scM0 (Memref.isWhole_whole _) (fun h => not0_of_mod3 h1 ((hcond0_0 t).mp h)) ((hcond0_1 t).mpr h1) (iblk0 V c 0 t) (iblk0 V c 1 t) (acc0 V c (t.val - 1) (Nat.lt_of_le_of_lt (Nat.sub_le _ _) t.isLt)) :=
  dif_pos h1

/-! ## The region invariant -/

/-- The invariant before position `n`: before the first point what the launch hands over (the accumulator at anything);
    afterwards the accumulator at what the point before left, beside the untouched scoped buffers and the generator
    register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data -/

/-- The proof data of region 0 on core `c`: the arrays as the region finds them; after the body each factor's buffer at
    its block and the output's at `outAt0`; the invariant `PhiS0`; nothing owed; the two factor windows read ONE array,
    each holding half of it, the output's array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem q0_eq (c : Dev nD) (w : Fin cfg0.W) : (dat0 V c).q w = (match w with | ⟨0, _⟩ => fullShare.left | ⟨1, _⟩ => fullShare.right | ⟨2, _⟩ => fullShare) := by
  dsimp only [dat0]

theorem owed0_eq (c : Dev nD) (t) : (dat0 V c).owed t = 0 := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

/-- Each factor's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The factors' memrefs hold their blocks; `t % 4` says which case the point is in; the
    invariant hands the body the accumulator at what the point before left (at anything at the first point) and takes
    it back at this point's contents; the untouched scoped buffers, the generator register and the core's debts pass
    through; where `k ≠ 3` the output's buffer is handed back as found, where `k = 3` at the stored block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := not3_of_mod0 h0
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [acc0_A V c t h0]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A _ _ _ _ _ _ _ _ _ _ _ _ _ _)
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A _ _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2, outAt0_C V c t h1]
      rw [acc0_C V c t h0 h1]
      unfold out0_C_2 sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 _ _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [acc0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.R1Runs.lean ====
/- Region 1 (the fused second product): what its three control cases share. The block of each window at a
   grid point, the two branch conditions of the body in closed form over the grid, where the output window is
   idle, the staging and accumulator memrefs, and the region invariant split into the accumulator, the other
   scoped buffers and the generator register. -/
import proofs.«160133_j25744033972455_2_alg».proof.Proof.Gen.KernelIdeal.Launch
import proofs.«160133_j25744033972455_2_alg».proof.Proof.Gen.KernelIdeal.Skeleton
import proofs.«160133_j25744033972455_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved since the fetch), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved since the fetch), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved since the fetch), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved since the fetch), for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved since the fetch), for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional of the body (reset the accumulator): the reduction coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 4): the reduction coordinate is the point's residue mod 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional of the body (combine and store the output block): the reduction coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where the reduction coordinate is 0 the output window is idle: the body stores nothing into it there, -/
theorem idleAt1_5_A : ∀ t : Fin cfg1.N, cond1_0 (grid1.coords t) → ¬cond1_1 (grid1.coords t) → cfg1.idle 5 (grid1.coords t) = true := by decide +kernel
/-- and its block is not written back there. -/
theorem noFlush1_5_A : ∀ t : Fin cfg1.N, cond1_0 (grid1.coords t) → ¬cond1_1 (grid1.coords t) → (cfg1.win 5).flush t = false := by decide +kernel
/-- Where the reduction coordinate is 1 or 2 the output window is idle, -/
theorem idleAt1_5_B : ∀ t : Fin cfg1.N, ¬cond1_0 (grid1.coords t) → ¬cond1_1 (grid1.coords t) → cfg1.idle 5 (grid1.coords t) = true := by decide +kernel
/-- and not written back. -/
theorem noFlush1_5_B : ∀ t : Fin cfg1.N, ¬cond1_0 (grid1.coords t) → ¬cond1_1 (grid1.coords t) → (cfg1.win 5).flush t = false := by decide +kernel
/-- Where the reduction coordinate is 3 the output window is live: the body stores its block. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated (the choice does not matter). -/
abbrev VO1_5 : View sig .tc .vmem S1024x1024 .f32 := (Memref.whole cc1_stg5_0 : Memref sig .tc .vmem S1024x1024 .f32).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows and carried from point to point. -/
abbrev scM1 : Memref sig .tc .vmem S1024x1024 .f32 := Memref.whole cc1_scratch0
/-- The same as a view: what it holds is stated through it. -/
abbrev VS1 : View sig .tc .vmem S1024x1024 .f32 := scM1.view

/-! ## The region invariant, split -/

/-- The core's scoped buffers that are neither staging buffers of this region nor its accumulator — the other
    region's staging buffers and its accumulator —, each whole at some contents. The body touches none of them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region invariant gives the accumulator at some contents, the other scoped buffers and the generator register, -/
theorem PhiA1_split (c : Dev nD) :
    (Pipeline.ΦA spec1 c : sProp 𝕄)
      ⊢ iprop(iprop((∃ d, owns (c : Thread nD τ) scM1 fullShare d) ∗ rest1 (F := F) c) ∗ (∃ r, prngReg c r)) := by
  unfold Pipeline.ΦA; rw [scopedRest1_eq]; unfold rest1; simp only [scM1, owns_whole]
  iintro ⟨⟨H0, H1, H2, H3, H4, H5, H6, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    iexact H6
  iexact Hg

/-- and takes them back. -/
theorem PhiA1_join (c : Dev nD) :
    iprop(iprop((∃ d, owns (c : Thread nD τ) scM1 fullShare d) ∗ rest1 (F := F) c) ∗ (∃ r, prngReg c r))
      ⊢ (Pipeline.ΦA spec1 c : sProp 𝕄) := by
  unfold Pipeline.ΦA; rw [scopedRest1_eq]; unfold rest1; simp only [scM1, owns_whole]
  iintro ⟨⟨HS, H0, H1, H2, H3, H4, H5, H6⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iexact Hg

end Cert.KernelIdeal.Hand

end
-- ==== Proof.KI.R1RunA.lean ====
/- Region 1, the body where the reduction coordinate is 0: the accumulator is reset to zero, then the product of the
   two operand blocks is added to it; the output block is not touched. -/
import proofs.«160133_j25744033972455_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

set_option maxHeartbeats 1000000 in
/-- Where the first conditional is taken and the second is not: on whole memrefs, the two operand blocks at
    contents `x0`, `x1` and the accumulator at anything, the body runs to the continuation holding the operand blocks
    as they were and the accumulator with the pieces `LS0` written (last first) — the pieces are the witness the run
    finds. The other windows' memrefs are not accessed. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8 arg9 harg9) K } := by
  refine ⟨?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R1RunB.lean ====
/- Region 1, the body where the reduction coordinate is 1 or 2: the product of the two operand blocks is added to
   the accumulator; the output block is not touched. -/
import proofs.«160133_j25744033972455_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

set_option maxHeartbeats 1000000 in
/-- Where neither conditional is taken: on whole memrefs, the two operand blocks at contents `x0`, `x1` and the
    accumulator at what the point before left (`xs0`), the body runs to the continuation holding the operand blocks as
    they were and the accumulator with the pieces `LS0` written (last first). -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S1024x1024 .f32) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs0
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8 arg9 harg9) K } := by
  refine ⟨?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R1RunC.lean ====
/- Region 1, the body where the reduction coordinate is 3: the last product is added to the accumulator, which is
   then thresholded and combined with the three other input blocks into the output block. -/
import proofs.«160133_j25744033972455_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

set_option maxHeartbeats 1000000 in
/-- Where the second conditional is taken and the first is not: on whole memrefs, the five input blocks at contents
    `x0` … `x4`, the output block at anything and the accumulator at what the point before left (`xs0`), the body runs to
    the continuation holding the input blocks as they were, the output block with the pieces `L5` written and the
    accumulator with the pieces `LS0` written (last first). -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8 arg9 harg9) K } := by
  refine ⟨?_, ?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KI.R1Frame.lean ====
/- Region 1, the body side: what the accumulator holds after each grid point (a recursion along the grid: reset
   where the reduction coordinate is 0, the previous value plus a product elsewhere), what the output window's
   staging buffer holds where the reduction coordinate is 3, the proof data of the pipeline, and the body obligation
   at every point from the three runs. -/
import proofs.«160133_j25744033972455_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each case leaves in the accumulator and in the output block -/

/-- Reduction coordinate 0: the pieces written into the accumulator tile it, so they cover it. -/
theorem scover1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S1024x1024 .f32) (y : S1024x1024.Idx) :
    ∃ pc ∈ (kernelRun1_A c i arg3 harg3 arg4 harg4 arg5 harg5 arg6 harg6 arg7 harg7 arg8 harg8 arg9 harg9 hc0 hc1 x0 x1).1, y ∈ pc.1.set :=
  View.cover_of_tiledL (kernelRun1_A c i arg3 harg3 arg4 harg4 arg5 harg5 arg6 harg6 arg7 harg7 arg8 harg8 arg9 harg9 hc0 hc1 x0 x1).1 S1024x1024.size (by sl_kernel_rfl) y

/-- What the accumulator then holds: the pieces read back. -/
def sout1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S1024x1024 .f32) : Vec F S1024x1024 .f32 :=
  VS1.read (Elt F) (VS1.writes (Elt F) VS1.junk (kernelRun1_A c i arg3 harg3 arg4 harg4 arg5 harg5 arg6 harg6 arg7 harg7 arg8 harg8 arg9 harg9 hc0 hc1 x0 x1).1)

/-- Reduction coordinate 1 or 2: the pieces written into the accumulator tile it, so they cover it. -/
theorem scover1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S1024x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 xs0).1, y ∈ pc.1.set :=
  View.cover_of_tiledL (kernelRun1_B c i arg3 harg3 arg4 harg4 arg5 harg5 arg6 harg6 arg7 harg7 arg8 harg8 arg9 harg9 hc0 hc1 x0 x1 xs0).1 S1024x1024.size (by sl_kernel_rfl) y

/-- What the accumulator then holds: the pieces read back. -/
def sout1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S1024x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 arg9 harg9 hc0 hc1 x0 x1 xs0).1)

/-- Reduction coordinate 3: the pieces written into the accumulator tile it, so they cover it. -/
theorem scover1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y

/-- What the accumulator then holds: the pieces read back. -/
def sout1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-- Reduction coordinate 3: the piece stored into the output block tiles it, so it covers it. -/
theorem cover1_C_5 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y

/-- What the output block then holds: the piece read back. -/
def out1_C_5 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-! ## The accumulation along the grid -/

/-- What the accumulator holds after the body at position `n`: the case of `n`'s reduction coordinate (`n % 4`), run at
    the point's memrefs and input blocks, over what position `n - 1` left except where the coordinate is 0 (a reset). -/
def acc1 (c : Dev nD) : (n : ℕ) → n < cfg1.N → Vec F S1024x1024 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 4 = 0 then
      if h1 : (n + 1) % 4 = 3 then
        False.elim (by omega)
      else
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (acc1 c n (Nat.lt_of_succ_lt hn))

/-- At a point with reduction coordinate 0. -/
theorem acc1_A (c : Dev nD) (t : Fin cfg1.N) (h0 : t.val % 4 = 0) (h1 : ¬t.val % 4 = 3) :
    acc1 V c t.val t.isLt = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

/-- At a point with reduction coordinate 1 or 2: over what the point before left. -/
theorem acc1_B (c : Dev nD) (t : Fin cfg1.N) (h0 : ¬t.val % 4 = 0) (h1 : ¬t.val % 4 = 3) :
    acc1 V c t.val t.isLt = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point with reduction coordinate 3: over what the point before left. -/
theorem acc1_C (c : Dev nD) (t : Fin cfg1.N) (h0 : ¬t.val % 4 = 0) (h1 : t.val % 4 = 3) :
    acc1 V c t.val t.isLt = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: where the reduction coordinate is 3
    the stored block; elsewhere the body stores nothing and the value is a placeholder nothing reads (the window is
    idle there and not written back). -/
def out1 (c : Dev nD) (t : Fin cfg1.N) : Vec F S1024x1024 .f32 :=
  if h1 : t.val % 4 = 3 then
    if h0 : t.val % 4 = 0 then VO1_5.read (Elt F) VO1_5.junk
    else out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (acc1 V c (t.val - 1) (Nat.lt_of_le_of_lt (Nat.sub_le _ _) t.isLt))
  else VO1_5.read (Elt F) VO1_5.junk

theorem out1_C (c : Dev nD) (t : Fin cfg1.N) (h0 : ¬t.val % 4 = 0) (h1 : t.val % 4 = 3) :
    out1 V c t = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (acc1 V c (t.val - 1) (Nat.lt_of_le_of_lt (Nat.sub_le _ _) t.isLt)) :=
  (dif_pos h1).trans (dif_neg h0)

/-! ## The invariant along the grid -/

/-- The region invariant before position `n`: before the first point the region's own (the accumulator at anything);
    afterwards the accumulator at what the point before left, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-! ## The pipeline's proof data -/

/-- The proof data of this pipeline on core `c`: the arrays as the region finds them; after the body at point `t`
    each input window's buffer at its block and the output window's at `out1`; the invariant `PhiS1`; nothing owed;
    full shares, except that the two windows reading one array hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ t := PhiS1 V c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]

theorem q1_eq (c : Dev nD) (w : Fin cfg1.W) : (dat1 V c).q w = (match w with | ⟨0, _⟩ => fullShare | ⟨1, _⟩ => fullShare.left | ⟨2, _⟩ => fullShare | ⟨3, _⟩ => fullShare | ⟨4, _⟩ => fullShare.right | ⟨5, _⟩ => fullShare) := by
  dsimp only [dat1]

theorem owed1_eq (c : Dev nD) (t) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The input windows' memrefs hold their blocks; the point's reduction coordinate says which
    case it is in; the invariant hands the body the accumulator at what the point before left (at anything at the
    first point) and takes it back at this point's contents, the other scoped buffers and the generator register riding
    along; where the output window is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [acc1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, H5⟩
      ihave HΦ' := (PhiA1_split (F := F) c) $$ HΦ
      icases HΦ' with ⟨⟨HS0, Hr⟩, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, H5⟩
      iapply ((kernelRun1_A c (grid1.coords t) _ _ _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5, out1_C V c t h0 h1]
      rw [acc1_C V c t h0 h1]
      unfold out1_C_5 sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [acc1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, H5⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 Hr Hg]
      · isplitr [Hg]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨⟨HS0, Hr⟩, Hg⟩
  iapply (PhiA1_join (F := F) c)
  isplitr [Hg]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
/-
  The two kernel regions of @main as segments of one run, and the run itself.

  Between two segments a TensorCore holds every unscoped buffer whole at a known valuation: the launch
  memory; then the host prefix applied to it (`W1`); then, after the first region, the same with its output
  array replaced by what the region's write-backs leave (`W2`); then likewise after the second (`W3`).
  A region takes its windows' arrays out of that valuation and puts them back.  In each region two input
  windows read ONE array (the first: both matmul operands are the adjacency matrix; the second: the
  thresholded square is both a matmul operand and a summand), so that array's full share is dealt to the
  two windows in halves at entry and joined again at exit, both halves still at the entry contents since
  an input window's array is never written.
-/
import proofs.«160133_j25744033972455_2_alg».proof.Proof.KI.R0Frame
import proofs.«160133_j25744033972455_2_alg».proof.Proof.KI.R1Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! ## Region 0: three windows on two arrays -/

/-- The buffers behind region 0's windows: the rounded adjacency matrix (read by windows 0 and 1) and the output. -/
theorem arrImg0 : (Finset.univ.image (Pipeline.arrRef spec0) : Finset (Ref sig .tc)) = {main_v27, main_v28} := by decide

theorem share0_0 (c : Dev nD) : (dat0 V c).share 0 = fullShare.left := by
  unfold Dat.share; rw [if_neg (by decide), q0_eq]
theorem share0_1 (c : Dev nD) : (dat0 V c).share 1 = fullShare.right := by
  unfold Dat.share; rw [if_neg (by decide), q0_eq]
theorem share0_2 (c : Dev nD) : (dat0 V c).share 2 = fullShare := by
  unfold Dat.share; rw [if_pos (by decide)]

/-- The windows' arrays of region 0 at contents `G`, one by one, each a whole buffer. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v27) ↦{fullShare.left} G 0) ∗ (((c : Thread nD τ).loc main_v27) ↦{fullShare.right} G 1)
          ∗ (((c : Thread nD τ).loc main_v28) ↦{fullShare} G 2)) := by
  have h : ((dat0 V c).arrays G : sProp 𝕄)
      = bigSep Finset.univ fun w : Fin cfg0.W => (((c : Thread nD τ).loc (Pipeline.arrRef spec0 w)) ↦{(dat0 V c).share w} G w : sProp 𝕄) := by
    unfold Dat.arrays; exact bigSep_congr fun w _ => by rw [(arr_whole0 w).set_eq_univ]
  rw [h, bigSep_W0, share0_0, share0_1, share0_2]

/-- ENTRY: the two buffers whole at the entry contents are the three windows' arrays, the shared one in halves. -/
theorem hsplit0 (c : Dev nD) :
    (Pipeline.arrBufs spec0 c (V c) : sProp 𝕄) ⊢ (dat0 V c).arrays fun w => (dat0 V c).arrAt w 0 := by
  rw [arrays0_eq]
  unfold Pipeline.arrBufs
  rw [arrImg0, bigSep_insert (by decide), bigSep_singleton]
  rw [show (dat0 V c).arrAt 0 0 = V c main_v27 from A_eq0 V c 0, show (dat0 V c).arrAt 1 0 = V c main_v27 from A_eq0 V c 1,
    show (dat0 V c).arrAt 2 0 = V c main_v28 from A_eq0 V c 2]
  show iprop((((c : Thread nD τ).loc main_v27) ↦{fullShare} V c main_v27) ∗ (((c : Thread nD τ).loc main_v28) ↦{fullShare} V c main_v28)) ⊢ _
  iintro ⟨H27, H28⟩
  ihave H := (pointsTo_share (PosShare.mem_left_op_right fullShare)).1 $$ H27
  icases H with ⟨Hl, Hr⟩
  isplitl [Hl]; · iexact Hl
  isplitl [Hr]; · iexact Hr
  iexact H28

/-- EXIT: the input windows' halves, still at the entry contents, join; the output's buffer holds what the write-backs left. -/
theorem hjoin0 (c : Dev nD) :
    ((dat0 V c).arrays fun w => (dat0 V c).arrAt w cfg0.N : sProp 𝕄)
      ⊢ iprop((((c : Thread nD τ).loc main_v27) ↦{fullShare} V c main_v27) ∗ (((c : Thread nD τ).loc main_v28) ↦{fullShare} (dat0 V c).arrAt 2 cfg0.N)) := by
  rw [arrays0_eq]
  rw [show (dat0 V c).arrAt 0 cfg0.N = V c main_v27 from ((dat0 V c).arrAt_in 0 rfl _).trans (A_eq0 V c 0),
    show (dat0 V c).arrAt 1 cfg0.N = V c main_v27 from ((dat0 V c).arrAt_in 1 rfl _).trans (A_eq0 V c 1)]
  iintro ⟨Hl, Hr, H28⟩
  isplitl [Hl Hr]
  · iapply (pointsTo_share (PosShare.mem_left_op_right fullShare)).2
    isplitl [Hl]; · iexact Hl
    iexact Hr
  iexact H28

/-- ENTRY of region 0 from every unscoped buffer at `V`: its windows' arrays and the rest. -/
theorem entry0 (c : Dev nD) :
    (unscopedBufs c (V c) : sProp 𝕄) ⊢ iprop(((dat0 V c).arrays fun w => (dat0 V c).arrAt w 0) ∗ Pipeline.unscopedRest spec0 c (V c)) := by
  rw [Pipeline.unscopedBufs_split₀ cfgs (0 : Fin 2) winFacts₀0.arr_unscoped c (V c)]
  exact sep_mono (hsplit0 V c) .rfl

/-- EXIT of region 0 to every unscoped buffer at any valuation that has the output array at what the write-backs
    left and agrees with the entry valuation elsewhere. -/
theorem exit0 (c : Dev nD) (V' : (b : Ref sig .tc) → Buf (Elt F) ((c : Thread nD τ).loc b))
    (h28 : V' main_v28 = (dat0 V c).arrAt 2 cfg0.N) (hrest : ∀ b, b ≠ main_v28 → V' b = V c b) :
    iprop(((dat0 V c).arrays fun w => (dat0 V c).arrAt w cfg0.N) ∗ Pipeline.unscopedRest spec0 c (V c)) ⊢ (unscopedBufs c V' : sProp 𝕄) := by
  rw [Pipeline.unscopedBufs_split₀ cfgs (0 : Fin 2) winFacts₀0.arr_unscoped c V']
  refine sep_mono ((hjoin0 V c).trans (Entails.of_eq ?_)) (Entails.of_eq ?_)
  · unfold Pipeline.arrBufs
    rw [show (Finset.univ.image (Pipeline.arrRef (cfgs (0 : Fin 2)).spec) : Finset (Ref sig .tc)) = {main_v27, main_v28} from arrImg0,
      bigSep_insert (by decide), bigSep_singleton, h28, hrest main_v27 (by decide)]
    rfl
  · unfold Pipeline.unscopedRest
    refine bigSep_congr fun b hb => ?_
    rw [hrest b (fun e => (Finset.mem_sdiff.mp hb).2 (by rw [e, arrImg0]; decide))]

/-! ## Region 1: six windows on five arrays -/

/-- The buffers behind region 1's windows: the rounded adjacency matrix, the thresholded square (windows 1 and 4),
    the edge counts, the adjacency matrix, and the output. -/
theorem arrImg1 : (Finset.univ.image (Pipeline.arrRef spec1) : Finset (Ref sig .tc)) = {main_v27, main_v28, main_v26, main_v24, main_v29} := by decide

theorem share1_0 (c : Dev nD) : (dat1 V c).share 0 = fullShare := by
  unfold Dat.share; rw [if_neg (by decide), q1_eq]
theorem share1_1 (c : Dev nD) : (dat1 V c).share 1 = fullShare.left := by
  unfold Dat.share; rw [if_neg (by decide), q1_eq]
theorem share1_2 (c : Dev nD) : (dat1 V c).share 2 = fullShare := by
  unfold Dat.share; rw [if_neg (by decide), q1_eq]
theorem share1_3 (c : Dev nD) : (dat1 V c).share 3 = fullShare := by
  unfold Dat.share; rw [if_neg (by decide), q1_eq]
theorem share1_4 (c : Dev nD) : (dat1 V c).share 4 = fullShare.right := by
  unfold Dat.share; rw [if_neg (by decide), q1_eq]
theorem share1_5 (c : Dev nD) : (dat1 V c).share 5 = fullShare := by
  unfold Dat.share; rw [if_pos (by decide)]

set_option maxHeartbeats 4000000 in
/-- The windows' arrays of region 1 at contents `G`, one by one, each a whole buffer. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v27) ↦{fullShare} G 0) ∗ (((c : Thread nD τ).loc main_v28) ↦{fullShare.left} G 1)
          ∗ (((c : Thread nD τ).loc main_v26) ↦{fullShare} G 2) ∗ (((c : Thread nD τ).loc main_v24) ↦{fullShare} G 3)
          ∗ (((c : Thread nD τ).loc main_v28) ↦{fullShare.right} G 4) ∗ (((c : Thread nD τ).loc main_v29) ↦{fullShare} G 5)) := by
  have h : ((dat1 V c).arrays G : sProp 𝕄)
      = bigSep Finset.univ fun w : Fin cfg1.W => (((c : Thread nD τ).loc (Pipeline.arrRef spec1 w)) ↦{(dat1 V c).share w} G w : sProp 𝕄) := by
    unfold Dat.arrays; exact bigSep_congr fun w _ => by rw [(arr_whole1 w).set_eq_univ]
  rw [h, bigSep_W1, share1_0, share1_1, share1_2, share1_3, share1_4, share1_5]

/-- ENTRY: the five buffers whole at the entry contents are the six windows' arrays, the shared one in halves. -/
theorem hsplit1 (c : Dev nD) :
    (Pipeline.arrBufs spec1 c (V c) : sProp 𝕄) ⊢ (dat1 V c).arrays fun w => (dat1 V c).arrAt w 0 := by
  rw [arrays1_eq]
  unfold Pipeline.arrBufs
  rw [arrImg1, bigSep_insert (by decide), bigSep_insert (by decide), bigSep_insert (by decide), bigSep_insert (by decide), bigSep_singleton]
  rw [show (dat1 V c).arrAt 0 0 = V c main_v27 from A_eq1 V c 0, show (dat1 V c).arrAt 1 0 = V c main_v28 from A_eq1 V c 1,
    show (dat1 V c).arrAt 2 0 = V c main_v26 from A_eq1 V c 2, show (dat1 V c).arrAt 3 0 = V c main_v24 from A_eq1 V c 3,
    show (dat1 V c).arrAt 4 0 = V c main_v28 from A_eq1 V c 4, show (dat1 V c).arrAt 5 0 = V c main_v29 from A_eq1 V c 5]
  show iprop((((c : Thread nD τ).loc main_v27) ↦{fullShare} V c main_v27) ∗ (((c : Thread nD τ).loc main_v28) ↦{fullShare} V c main_v28)
    ∗ (((c : Thread nD τ).loc main_v26) ↦{fullShare} V c main_v26) ∗ (((c : Thread nD τ).loc main_v24) ↦{fullShare} V c main_v24)
    ∗ (((c : Thread nD τ).loc main_v29) ↦{fullShare} V c main_v29)) ⊢ _
  iintro ⟨H27, H28, H26, H24, H29⟩
  ihave H := (pointsTo_share (PosShare.mem_left_op_right fullShare)).1 $$ H28
  icases H with ⟨Hl, Hr⟩
  isplitl [H27]; · iexact H27
  isplitl [Hl]; · iexact Hl
  isplitl [H26]; · iexact H26
  isplitl [H24]; · iexact H24
  isplitl [Hr]; · iexact Hr
  iexact H29

/-- EXIT: every input window's array still at the entry contents, the shared one's halves joined; the output's buffer
    holds what the write-backs left. -/
theorem hjoin1 (c : Dev nD) :
    ((dat1 V c).arrays fun w => (dat1 V c).arrAt w cfg1.N : sProp 𝕄)
      ⊢ iprop((((c : Thread nD τ).loc main_v27) ↦{fullShare} V c main_v27) ∗ (((c : Thread nD τ).loc main_v28) ↦{fullShare} V c main_v28)
          ∗ (((c : Thread nD τ).loc main_v26) ↦{fullShare} V c main_v26) ∗ (((c : Thread nD τ).loc main_v24) ↦{fullShare} V c main_v24)
          ∗ (((c : Thread nD τ).loc main_v29) ↦{fullShare} (dat1 V c).arrAt 5 cfg1.N)) := by
  rw [arrays1_eq]
  rw [show (dat1 V c).arrAt 0 cfg1.N = V c main_v27 from ((dat1 V c).arrAt_in 0 rfl _).trans (A_eq1 V c 0),
    show (dat1 V c).arrAt 1 cfg1.N = V c main_v28 from ((dat1 V c).arrAt_in 1 rfl _).trans (A_eq1 V c 1),
    show (dat1 V c).arrAt 2 cfg1.N = V c main_v26 from ((dat1 V c).arrAt_in 2 rfl _).trans (A_eq1 V c 2),
    show (dat1 V c).arrAt 3 cfg1.N = V c main_v24 from ((dat1 V c).arrAt_in 3 rfl _).trans (A_eq1 V c 3),
    show (dat1 V c).arrAt 4 cfg1.N = V c main_v28 from ((dat1 V c).arrAt_in 4 rfl _).trans (A_eq1 V c 4)]
  iintro ⟨H27, Hl, H26, H24, Hr, H29⟩
  isplitl [H27]; · iexact H27
  isplitl [Hl Hr]
  · iapply (pointsTo_share (PosShare.mem_left_op_right fullShare)).2
    isplitl [Hl]; · iexact Hl
    iexact Hr
  isplitl [H26]; · iexact H26
  isplitl [H24]; · iexact H24
  iexact H29

theorem entry1 (c : Dev nD) :
    (unscopedBufs c (V c) : sProp 𝕄) ⊢ iprop(((dat1 V c).arrays fun w => (dat1 V c).arrAt w 0) ∗ Pipeline.unscopedRest spec1 c (V c)) := by
  rw [Pipeline.unscopedBufs_split₀ cfgs (1 : Fin 2) winFacts₀1.arr_unscoped c (V c)]
  exact sep_mono (hsplit1 V c) .rfl

theorem exit1 (c : Dev nD) (V' : (b : Ref sig .tc) → Buf (Elt F) ((c : Thread nD τ).loc b))
    (h29 : V' main_v29 = (dat1 V c).arrAt 5 cfg1.N) (hrest : ∀ b, b ≠ main_v29 → V' b = V c b) :
    iprop(((dat1 V c).arrays fun w => (dat1 V c).arrAt w cfg1.N) ∗ Pipeline.unscopedRest spec1 c (V c)) ⊢ (unscopedBufs c V' : sProp 𝕄) := by
  rw [Pipeline.unscopedBufs_split₀ cfgs (1 : Fin 2) winFacts₀1.arr_unscoped c V']
  refine sep_mono ((hjoin1 V c).trans (Entails.of_eq ?_)) (Entails.of_eq ?_)
  · unfold Pipeline.arrBufs
    rw [show (Finset.univ.image (Pipeline.arrRef (cfgs (1 : Fin 2)).spec) : Finset (Ref sig .tc)) = {main_v27, main_v28, main_v26, main_v24, main_v29} from arrImg1,
      bigSep_insert (by decide), bigSep_insert (by decide), bigSep_insert (by decide), bigSep_insert (by decide), bigSep_singleton,
      h29, hrest main_v27 (by decide), hrest main_v28 (by decide), hrest main_v26 (by decide), hrest main_v24 (by decide)]
    rfl
  · unfold Pipeline.unscopedRest
    refine bigSep_congr fun b hb => ?_
    rw [hrest b (fun e => (Finset.mem_sdiff.mp hb).2 (by rw [e, arrImg1]; decide))]

end Arrays

/-! # The run: @main's segments from the launch to the return -/

variable (m : (ℓ : Loc nD τ sig) → Buf (Elt F) ℓ) (ρ : Dev nD → PrngReg)

/-- Core `c`'s buffers at launch, -/
abbrev W0 (c : Dev nD) : Valuation τ sig (Elt F) := fun b => m (c, b)
/-- after the host prefix (region 0's entry), -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- after region 0: its output array at what the write-backs of the thresholded square's blocks leave (region 1's entry), -/
def W2 (c : Dev nD) : Valuation τ sig (Elt F) :=
  Function.update (W1 m c) (Proc.devRef .tc main_v28) ((dat0 (V1 m) c).arrAt 2 cfg0.N)
abbrev V2 : (c : Dev nD) → (b : Ref sig .tc) → Buf (Elt F) ((c : Thread nD τ).loc b) := fun c b => W2 m c b
/-- after region 1: its output array at what the write-backs of the combined blocks leave. -/
def W3 (c : Dev nD) : Valuation τ sig (Elt F) :=
  Function.update (W2 m c) (Proc.devRef .tc main_v29) ((dat1 (V2 m) c).arrAt 5 cfg1.N)
abbrev V3 : (c : Dev nD) → (b : Ref sig .tc) → Buf (Elt F) ((c : Thread nD τ).loc b) := fun c b => W3 m c b

theorem V2_v28 (c : Dev nD) : V2 m c main_v28 = (dat0 (V1 m) c).arrAt 2 cfg0.N := by
  show Function.update _ _ _ _ = _; exact Function.update_self ..
theorem V2_of_ne (c : Dev nD) (b : Ref sig .tc) (h : b ≠ main_v28) : V2 m c b = V1 m c b := by
  show Function.update _ _ _ _ = _
  exact Function.update_of_ne (StableHlo.devRef_ne_of_ne h) ..
theorem V3_v29 (c : Dev nD) : V3 m c main_v29 = (dat1 (V2 m) c).arrAt 5 cfg1.N := by
  show Function.update _ _ _ _ = _; exact Function.update_self ..
theorem V3_of_ne (c : Dev nD) (b : Ref sig .tc) (h : b ≠ main_v29) : V3 m c b = V2 m c b := by
  show Function.update _ _ _ _ = _
  exact Function.update_of_ne (StableHlo.devRef_ne_of_ne h) ..

/-- The references the host prefix writes. -/
abbrev hostW : List (Ref sig .tc) := [main_v0, main_v1, main_v2, main_v3, main_cst, main_v4, main_v5, main_v6, main_v7, main_cst_0, main_v8, main_c, main_v9, main_v10, main_c_1, main_v11, main_v12, main_v13, main_c_2, main_v14, main_v15, main_c_3, main_v16, main_v17, main_v18, main_v19, main_v20, main_v21, main_v22, main_v23, main_v24, main_v25, main_v26, main_v27]

theorem hostOps0_fresh : (hostOps0 : List (HloOp τ sig (Elt F))).Forall fun op => op.fresh = ∅ := by
  simp only [List.Forall]; repeat' constructor

/-- An argument array is written by no host operation and by no region. -/
theorem V3_arg (c : Dev nD) (b : Ref sig .tc) (h29 : b ≠ main_v29) (h28 : b ≠ main_v28)
    (hw : ∀ op ∈ (hostOps0 : List (HloOp τ sig (Elt F))), (Proc.devRef .tc b : DevRef τ sig) ∉ op.writes) :
    V3 m c b = m ((c : Thread nD τ).loc b) :=
  (V3_of_ne m c b h29).trans ((V2_of_ne m c b h28).trans (StableHlo.after_of_forall_not_mem (b := Proc.devRef .tc b) _ _ hw))

/-! ## The proof data family and the thread state -/

abbrev adm : (p : Fin 2) → (pcfgs (F := F) p).Adm := fun p => (cfgs p).toPCfg_adm
/-- Each region's proof data at its own entry contents — a literal match on the region. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun c t => owed0_eq (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry0 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0_eq (V1 m) c 0]
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := exit0 (V1 m) c (V2 m c) (V2_v28 m c) (fun b hb => V2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats m 0 c).owed (Fin.last _) = 0 from owed0_eq (V1 m) c _]
    icases HO with ⟨%W, -, HO⟩; iexists W; iexact HO

set_option backward.isDefEq.respectTransparency.types false in
/-- REGION 1 over the thread state: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun c t => owed1_eq (V2 m) c t
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1_eq (V2 m) c 0]
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := exit1 (V2 m) c (V3 m c) (V3_v29 m c) (fun b hb => V3_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    rw [show (pdats m 1 c).owed (Fin.last _) = 0 from owed1_eq (V2 m) c _]
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and in
    every final state each unscoped buffer holds the last valuation's contents: the result array what the second region's
    write-backs leave, every argument array its launch contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KI.Frame.lean ====
/-
  The run read at the result and at the arguments: in every final state the result array holds what the second
  region's write-backs leave and each argument array its launch contents — no host operation writes an argument
  (each writes its own result buffer) and neither region has an argument among its output windows.
-/
import proofs.«160133_j25744033972455_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No operation of the host prefix writes the first argument, -/
theorem keeps_arg0 : ∀ op ∈ (hostOps0 : List (HloOp τ sig (Elt F))), (Proc.devRef .tc main_arg0 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- nor the second, -/
theorem keeps_arg1 : ∀ op ∈ (hostOps0 : List (HloOp τ sig (Elt F))), (Proc.devRef .tc main_arg1 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- nor the third. -/
theorem keeps_arg2 : ∀ op ∈ (hostOps0 : List (HloOp τ sig (Elt F))), (Proc.devRef .tc main_arg2 : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- THE RUN, read at the result and the arguments. -/
theorem run_post : θ_run defs (onTc (τ := τ) (main (F := F))) ⟨m, fun _ => 0, ρ⟩ (fun r => ∀ c : Dev nD,
      r.2.mem ((c.tc : Thread nD τ).loc main_v29) = V3 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v29 (by decide)),
     (h c _ (mem_uc main_arg0 (by decide))).trans (V3_arg m c main_arg0 (by decide) (by decide) (keeps_arg0 (F := F))),
     (h c _ (mem_uc main_arg1 (by decide))).trans (V3_arg m c main_arg1 (by decide) (by decide) (keeps_arg1 (F := F))),
     (h c _ (mem_uc main_arg2 (by decide))).trans (V3_arg m c main_arg2 (by decide) (by decide) (keeps_arg2 (F := F)))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_post m ρ)

end Cert.KernelIdeal.Hand

end
-- ==== Proof.KI.R0Pieces.lean ====
import proofs.«160133_j25744033972455_2_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the values the pieces hold

Each case's pieces, read back, are the body's arithmetic applied to the blocks: the accumulator after a point is the
accumulator before it (zero where `k = 0`) plus the product of the two factor blocks, and the stored output block is the
thresholded accumulator. -/

/-- The whole-block rectangle's offsets are zero. -/
theorem hz0 : (![0, 0] : Fin S1024x1024.rank → ℕ) = fun _ => 0 := by funext a; fin_cases a <;> rfl

/-- Where `k = 0`: the accumulator ends at zero plus the product of the blocks. -/
theorem sout0_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    sout0_A c i arg3 harg3 arg4 harg4 arg5 harg5 arg6 harg6 hc0 hc1 x0 x1 = k0_pay2 (k0_pay1 (F := F)) x0 x1 := by
  unfold sout0_A
  rw [View.read_writes_eq_canon _ _ _ (scover0_A c i arg3 harg3 arg4 harg4 arg5 harg5 arg6 harg6 hc0 hc1 x0 x1)]
  unfold kernelRun0_A; dsimp only
  sl_unfold_words
  rw [View.canon_cons_unit_zero hz0]
  rw [View.readCov_unit_zero _ hz0]
  simp only [View.readAt_eq_ld, harg3.read_unread, harg4.read_unread, View.ld_unit_zero (S := S1024x1024) hz0]

/-- Where `k ∈ {1, 2}`: the accumulator ends at what it held plus the product of the blocks. -/
theorem sout0_B_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    sout0_B c i arg3 harg3 arg4 harg4 arg5 harg5 arg6 harg6 hc0 hc1 x0 x1 xs0 = k0_pay2 xs0 x0 x1 := by
  unfold sout0_B
  rw [View.read_writes_eq_canon _ _ _ (scover0_B c i arg3 harg3 arg4 harg4 arg5 harg5 arg6 harg6 hc0 hc1 x0 x1 xs0)]
  unfold kernelRun0_B; dsimp only
  sl_unfold_words
  rw [View.canon_unit_zero hz0]
  simp only [View.readAt_eq_ld, harg6.read_unread, harg3.read_unread, harg4.read_unread, View.ld_unit_zero (S := S1024x1024) hz0]

/-- Where `k = 3`: the accumulator ends at what it held plus the product of the blocks, -/
theorem sout0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    sout0_C c i arg3 harg3 arg4 harg4 arg5 harg5 arg6 harg6 hc0 hc1 x0 x1 xs0 = k0_pay2 xs0 x0 x1 := by
  unfold sout0_C
  rw [View.read_writes_eq_canon _ _ _ (scover0_C c i arg3 harg3 arg4 harg4 arg5 harg5 arg6 harg6 hc0 hc1 x0 x1 xs0)]
  unfold kernelRun0_C; dsimp only
  sl_unfold_words
  rw [View.canon_unit_zero hz0]
  simp only [View.readAt_eq_ld, harg6.read_unread, harg3.read_unread, harg4.read_unread, View.ld_unit_zero (S := S1024x1024) hz0]

/-- and the output block is that accumulator, thresholded. -/
theorem out0_C_2_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C; dsimp only
  sl_unfold_words
  rw [View.canon_unit_zero hz0]
  rw [View.readCov_unit_zero _ hz0]
  simp only [View.readAt_eq_ld, harg6.read_unread, harg3.read_unread, harg4.read_unread, View.ld_unit_zero (S := S1024x1024) hz0]

/-! ## The value equations, point by point -/

/-- At the first point of a reduction (`k = 0`) the accumulator is zero plus the product of the point's blocks. -/
theorem acc0_first (c : Dev nD) (t : Fin cfg0.N) (h : t.val % 4 = 0) :
    acc0 V c t.val t.isLt = k0_pay2 (k0_pay1 (F := F)) (iblk0 V c 0 t) (iblk0 V c 1 t) := by
  rw [acc0_A V c t h]
  exact sout0_A_eq c (grid0.coords t) (ms0_0 t) (hs0_0 t) (ms0_1 t) (hs0_1 t) (ms0_2 t) (hs0_2 t) scM0 (Memref.isWhole_whole _) ((hcond0_0 t).mpr h) (fun h' => not3_of_mod0 h ((hcond0_1 t).mp h')) (iblk0 V c 0 t) (iblk0 V c 1 t)

/-- At every later point of a reduction the accumulator is what the point before left plus the product of the point's
    blocks. -/
theorem acc0_next (c : Dev nD) (t : Fin cfg0.N) (h : ¬ t.val % 4 = 0) :
    acc0 V c t.val t.isLt = k0_pay2 (acc0 V c (t.val - 1) (Nat.lt_of_le_of_lt (Nat.sub_le _ _) t.isLt)) (iblk0 V c 0 t) (iblk0 V c 1 t) := by
  by_cases h1 : t.val % 4 = 3
  · rw [acc0_C V c t h h1]
    exact sout0_C_eq c (grid0.coords t) (ms0_0 t) (hs0_0 t) (ms0_1 t) (hs0_1 t) (ms0_2 t) (hs0_2 t) scM0 (Memref.isWhole_whole _) (fun h' => h ((hcond0_0 t).mp h')) ((hcond0_1 t).mpr h1) (iblk0 V c 0 t) (iblk0 V c 1 t) (acc0 V c (t.val - 1) (Nat.lt_of_le_of_lt (Nat.sub_le _ _) t.isLt))
  · rw [acc0_B V c t h h1]
    exact sout0_B_eq c (grid0.coords t) (ms0_0 t) (hs0_0 t) (ms0_1 t) (hs0_1 t) (ms0_2 t) (hs0_2 t) scM0 (Memref.isWhole_whole _) (fun h' => h ((hcond0_0 t).mp h')) (fun h' => h1 ((hcond0_1 t).mp h')) (iblk0 V c 0 t) (iblk0 V c 1 t) (acc0 V c (t.val - 1) (Nat.lt_of_le_of_lt (Nat.sub_le _ _) t.isLt))

/-- At the last point of a reduction (`k = 3`) the output's staging buffer holds the thresholded accumulator. -/
theorem after0_out (c : Dev nD) (t : Fin cfg0.N) (h : t.val % 4 = 3) :
    (dat0 V c).after 2 t = k0_pay3 (acc0 V c t.val t.isLt) := by
  have h0 : ¬ t.val % 4 = 0 := not0_of_mod3 h
  rw [after0_2, outAt0_C V c t h, acc0_C V c t h0 h]
  exact (out0_C_2_eq c (grid0.coords t) (ms0_0 t) (hs0_0 t) (ms0_1 t) (hs0_1 t) (ms0_2 t) (hs0_2 t) scM0 (Memref.isWhole_whole _) (fun h' => h0 ((hcond0_0 t).mp h')) ((hcond0_1 t).mpr h) (iblk0 V c 0 t) (iblk0 V c 1 t) (acc0 V c (t.val - 1) (Nat.lt_of_le_of_lt (Nat.sub_le _ _) t.isLt))).trans
    (congrArg k0_pay3 (sout0_C_eq c (grid0.coords t) (ms0_0 t) (hs0_0 t) (ms0_1 t) (hs0_1 t) (ms0_2 t) (hs0_2 t) scM0 (Memref.isWhole_whole _) (fun h' => h0 ((hcond0_0 t).mp h')) ((hcond0_1 t).mpr h) (iblk0 V c 0 t) (iblk0 V c 1 t) (acc0 V c (t.val - 1) (Nat.lt_of_le_of_lt (Nat.sub_le _ _) t.isLt))).symm)

end Cert.KernelIdeal.Hand

end
-- ==== Proof.Math.Spec.lean ====
/- The mathematical content of the two programs at the ideal values: a float is an extended real, every
   operation is exact. The matrices are functions on the index set of a 4096 × 4096 array. -/
import Idealize.ShloMosaic.PureOps.Ideal
import Idealize.ShloMosaic.PureOps.Ideal.Laws
import Idealize.ShloMosaic.Lib.ValueIdx

noncomputable section

namespace Cert.Bridge

open Idealize.ShloMosaic Idealize.ShloMosaic.ValueIdx
open scoped BigOperators

/-- The index shape of the whole matrices. -/
abbrev S4k : Shape := ⟨2, ![4096, 4096]⟩
/-- The index shape of one block. -/
abbrev S1k : Shape := ⟨2, ![1024, 1024]⟩

/-- The threshold: `x` where `x` is at least the extended real the single-precision word `0x3BA3D70A` denotes
    (the float nearest 5·10⁻³), and `0` elsewhere. Written as the comparison bit and the choice on it, which is
    what an elementwise compare-and-select is at one element. -/
def thr (x : EReal) : EReal :=
  Scalar.select (Ideal.cmp .oge x (Ideal.ofBits .f32 0x3BA3D70A#32)) x 0

/-- The threshold as a case distinction on the order of the extended reals. -/
theorem thr_eq_ite (x : EReal) :
    thr x = if Ideal.ofBits .f32 0x3BA3D70A#32 ≤ x then x else 0 := by
  unfold thr Scalar.select Ideal.cmp
  by_cases h : Ideal.ofBits .f32 0x3BA3D70A#32 ≤ x
  · simp [h]
  · simp [h]

/-- The matrix product: entry `(r, c)` is `∑ k, a (r, k) * b (k, c)` over the 4096 values of `k`. -/
def mm (a b : S4k.Idx → EReal) : S4k.Idx → EReal :=
  fun i => ∑ k : Fin 4096, a (ix2 (i 0 : Fin 4096) k) * b (ix2 k (i 1 : Fin 4096))

/-- The thresholded square `thr (a · a)`. -/
def M2 (a : S4k.Idx → EReal) : S4k.Idx → EReal := fun i => thr (mm a a i)

/-- The four coefficients, each the extended real its single-precision word denotes. -/
def th0 : EReal := Ideal.ofBits .f32 0x3ECCCCCD#32
def th1 : EReal := Ideal.ofBits .f32 0x3E75C28F#32
def th2 : EReal := Ideal.ofBits .f32 0x3E1374BC#32
def th3 : EReal := Ideal.ofBits .f32 0x3DB0F27C#32

/-- The result: `th0 · p0 + th1 · a + th2 · thr (a · a) + th3 · thr (a · thr (a · a))`, entry by entry, the sum
    associated from the left. -/
def out (a p0 : S4k.Idx → EReal) : S4k.Idx → EReal :=
  fun i => ((th0 * p0 i + th1 * a i) + th2 * M2 a i) + th3 * thr (mm a (M2 a) i)

end Cert.Bridge

end
-- ==== Proof.Math.Payload.lean ====
/- The values the two kernel bodies store, read at one index at the ideal values. -/
import proofs.«160133_j25744033972455_2_alg».proof.Proof.Math.Spec
import proofs.«160133_j25744033972455_2_alg».proof.Proof.Gen.KernelIdeal.Skeleton
import Idealize.ShloMosaic.Lib.Pipeline.Value

noncomputable section

namespace Cert.Bridge

open Idealize.ShloMosaic Idealize.ShloMosaic.ValueIdx Cert.KernelIdeal Cert.KernelIdeal.Gen
open scoped BigOperators

/-- The block product's operand indices at output index `i` and contraction index `κ`, one coordinate at a time:
    the left operand is read at `(i 0, κ)`, the right at `(κ, i 1)`. -/
theorem dot_lhs_0 (i : S1024x1024.Idx) (κ : dot_S1024x1024_S1024x1024_S1024x1024_1_0_0_1_n_n.contr.Idx) :
    (dot_S1024x1024_S1024x1024_S1024x1024_1_0_0_1_n_n.lhsIdx i κ 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem dot_lhs_1 (i : S1024x1024.Idx) (κ : dot_S1024x1024_S1024x1024_S1024x1024_1_0_0_1_n_n.contr.Idx) :
    (dot_S1024x1024_S1024x1024_S1024x1024_1_0_0_1_n_n.lhsIdx i κ 1).val = (κ ⟨0, by decide⟩).val :=
  dot_S1024x1024_S1024x1024_S1024x1024_1_0_0_1_n_n.lhsIdx_val_of_single rfl i κ
theorem dot_rhs_0 (i : S1024x1024.Idx) (κ : dot_S1024x1024_S1024x1024_S1024x1024_1_0_0_1_n_n.contr.Idx) :
    (dot_S1024x1024_S1024x1024_S1024x1024_1_0_0_1_n_n.rhsIdx i κ 0).val = (κ ⟨0, by decide⟩).val :=
  dot_S1024x1024_S1024x1024_S1024x1024_1_0_0_1_n_n.rhsIdx_val_of_single rfl i κ
theorem dot_rhs_1 (i : S1024x1024.Idx) (κ : dot_S1024x1024_S1024x1024_S1024x1024_1_0_0_1_n_n.contr.Idx) :
    (dot_S1024x1024_S1024x1024_S1024x1024_1_0_0_1_n_n.rhsIdx i κ 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- With the contraction index named by its one coordinate `k`: `(p, k)` on the left, `(k, q)` on the right. -/
theorem dot_lhsIdx (p q k : Fin 1024) :
    dot_S1024x1024_S1024x1024_S1024x1024_1_0_0_1_n_n.lhsIdx (ix2 p q)
      ((contrEquiv1 dot_S1024x1024_S1024x1024_S1024x1024_1_0_0_1_n_n 1024 rfl rfl).symm k) = ix2 p k := by
  have hk := contrEquiv1_symm_val dot_S1024x1024_S1024x1024_S1024x1024_1_0_0_1_n_n 1024 rfl rfl k
  exact funext fun a => Fin.ext (by
    match a with
    | ⟨0, _⟩ => exact dot_lhs_0 _ _
    | ⟨1, _⟩ => exact (dot_lhs_1 _ _).trans hk)

theorem dot_rhsIdx (p q k : Fin 1024) :
    dot_S1024x1024_S1024x1024_S1024x1024_1_0_0_1_n_n.rhsIdx (ix2 p q)
      ((contrEquiv1 dot_S1024x1024_S1024x1024_S1024x1024_1_0_0_1_n_n 1024 rfl rfl).symm k) = ix2 k q := by
  have hk := contrEquiv1_symm_val dot_S1024x1024_S1024x1024_S1024x1024_1_0_0_1_n_n 1024 rfl rfl k
  exact funext fun a => Fin.ext (by
    match a with
    | ⟨0, _⟩ => exact (dot_rhs_0 _ _).trans hk
    | ⟨1, _⟩ => exact dot_rhs_1 _ _)

/-- A block product into the zero accumulator, read at `(p, q)`: `∑ k, l (p, k) * r (k, q)`. -/
theorem blockDot_apply {φ₁ φ₂ : FTy} (l : FVec Ideal S1024x1024 φ₁) (r : FVec Ideal S1024x1024 φ₂) (p q : Fin 1024) :
    matmul dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  rw [dot_lhsIdx, dot_rhsIdx]

/-- The first store of either body writes the zero block. -/
theorem k0_pay1_apply (j : S1024x1024.Idx) : k0_pay1 (F := Ideal) j = 0 := by
  unfold k0_pay1
  simp only [shapeCast_self]
  exact Ideal.ofBits_zero_f32

theorem k1_pay1_apply (j : S1024x1024.Idx) : k1_pay1 (F := Ideal) j = 0 := by
  unfold k1_pay1
  simp only [shapeCast_self]
  exact Ideal.ofBits_zero_f32

/-- The accumulation step of the first body: the accumulator plus the product of the two loaded blocks. -/
theorem k0_pay2_apply (s : Vec Ideal S1024x1024 .f32) (x0 x1 : Vec Ideal S1024x1024 .bf16) (p q : Fin 1024) :
    k0_pay2 s x0 x1 (ix2 p q) = s (ix2 p q) + ∑ k : Fin 1024, x0 (ix2 p k) * x1 (ix2 k q) := by
  unfold k0_pay2
  simp only [shapeCast_self]
  refine (addf_apply _ _ _).trans ?_
  rw [blockDot_apply]

/-- The accumulation step of the second body: the accumulator plus the product of the loaded left block with
    the loaded right block, whose narrowing to the shorter format is the identity on extended reals. -/
theorem k1_pay2_apply (v3 s : Vec Ideal S1024x1024 .f32) (v7 : Vec Ideal S1024x1024 .bf16) (p q : Fin 1024) :
    k1_pay2 v3 s v7 (ix2 p q) = s (ix2 p q) + ∑ k : Fin 1024, v7 (ix2 p k) * v3 (ix2 k q) := by
  unfold k1_pay2
  simp only [shapeCast_self]
  refine (addf_apply _ _ _).trans ?_
  rw [blockDot_apply]
  rfl

/-- The last store of the first body: the threshold of the accumulator. -/
theorem k0_pay3_apply (s : Vec Ideal S1024x1024 .f32) (j : S1024x1024.Idx) : k0_pay3 s j = thr (s j) := by
  show Scalar.select (Ideal.cmp .oge (s j) (Ideal.ofBits .f32 0x3BA3D70A#32)) (s j) (Ideal.ofBits .f32 0x00000000#32) = _
  rw [Ideal.ofBits_zero_f32]
  rfl

/-- The last store of the second body: the four-term combination, the fourth term the threshold of the
    accumulator. -/
theorem k1_pay3_apply (s p0 a m2 : Vec Ideal S1024x1024 .f32) (j : S1024x1024.Idx) :
    k1_pay3 s p0 a m2 j = ((th0 * p0 j + th1 * a j) + th2 * m2 j) + th3 * thr (s j) := by
  unfold k1_pay3
  simp only [shapeCast_self]
  show ((Ideal.ofBits .f32 0x3ECCCCCD#32 * p0 j + Ideal.ofBits .f32 0x3E75C28F#32 * a j)
      + Ideal.ofBits .f32 0x3E1374BC#32 * m2 j)
      + Ideal.ofBits .f32 0x3DB0F27C#32
        * Scalar.select (Ideal.cmp .oge (s j) (Ideal.ofBits .f32 0x3BA3D70A#32)) (s j) (Ideal.ofBits .f32 0x00000000#32) = _
  rw [Ideal.ofBits_zero_f32]
  rfl

end Cert.Bridge

end
-- ==== Proof.Math.Blocked.lean ====
/- The block law: a 4096-term matrix product, accumulated block by block over four contraction blocks of 1024
   terms, is the whole product. Only that `+` on the extended reals is commutative and associative with unit
   `0` is used; nothing is assumed finite. -/
import proofs.«160133_j25744033972455_2_alg».proof.Proof.Math.Spec

noncomputable section

namespace Cert.Bridge

open Idealize.ShloMosaic Idealize.ShloMosaic.ValueIdx
open scoped BigOperators

/-- The row or column of the whole matrix at offset `r` of block `b`: `1024 * b + r`. -/
abbrev gix (b : Fin 4) (r : Fin 1024) : Fin 4096 :=
  ⟨1024 * b.val + r.val, by have := b.isLt; have := r.isLt; omega⟩

theorem gix_val (b : Fin 4) (r : Fin 1024) : (gix b r).val = 1024 * b.val + r.val := rfl

/-- A sum over the 4096 rows is the sum over the four blocks of the sum over the 1024 offsets: every
    `k < 4096` is `1024 * b + r` for exactly one block `b` and offset `r`. -/
theorem sum_gix {M : Type*} [AddCommMonoid M] (f : Fin 4096 → M) :
    ∑ k : Fin 4096, f k = ∑ kb : Fin 4, ∑ kk : Fin 1024, f (gix kb kk) := by
  have h := Equiv.sum_comp (finProdFinEquiv (m := 4) (n := 1024)) (fun k : Fin (4 * 1024) => f k)
  rw [Fintype.sum_prod_type] at h
  refine h.symm.trans ?_
  refine Finset.sum_congr rfl fun kb _ => Finset.sum_congr rfl fun kk _ => ?_
  exact congrArg f (Fin.ext (Nat.add_comm _ _))

/-- The product of block `(bi, kb)` of `a` with block `(kb, bj)` of `b`, at offset `y` of the result block. -/
def blkProd (a b : S4k.Idx → EReal) (bi bj kb : Fin 4) : S1k.Idx → EReal :=
  fun y => ∑ kk : Fin 1024,
    a (ix2 (gix bi (y 0 : Fin 1024)) (gix kb kk)) * b (ix2 (gix kb kk) (gix bj (y 1 : Fin 1024)))

/-- The accumulator after contraction block `k`: zero plus the first block product, then one more block product
    at each step. -/
def accSpec (a b : S4k.Idx → EReal) (bi bj : Fin 4) : (k : ℕ) → k < 4 → S1k.Idx → EReal
  | 0, _ => fun y => 0 + blkProd a b bi bj 0 y
  | k + 1, h => fun y => accSpec a b bi bj k (Nat.lt_of_succ_lt h) y + blkProd a b bi bj ⟨k + 1, h⟩ y

theorem accSpec_zero (a b : S4k.Idx → EReal) (bi bj : Fin 4) (h : 0 < 4) (y : S1k.Idx) :
    accSpec a b bi bj 0 h y = 0 + blkProd a b bi bj 0 y := rfl

theorem accSpec_succ (a b : S4k.Idx → EReal) (bi bj : Fin 4) (k : ℕ) (h : k + 1 < 4) (y : S1k.Idx) :
    accSpec a b bi bj (k + 1) h y
      = accSpec a b bi bj k (Nat.lt_of_succ_lt h) y + blkProd a b bi bj ⟨k + 1, h⟩ y := rfl

/-- After the last contraction block the accumulator holds the whole product's entry. -/
theorem accSpec_last (a b : S4k.Idx → EReal) (bi bj : Fin 4) (p q : Fin 1024) :
    accSpec a b bi bj 3 (by decide) (ix2 p q) = mm a b (ix2 (gix bi p) (gix bj q)) := by
  show _ = ∑ k : Fin 4096, a (ix2 (gix bi p) k) * b (ix2 k (gix bj q))
  rw [sum_gix, Fin.sum_univ_four]
  simp only [accSpec, blkProd, zero_add]
  rfl

end Cert.Bridge

end
-- ==== Proof.KI.Value0.lean ====
/- The value of the first block-matrix region at the ideal values: from the per-point facts of the body to the
   whole result array as one function of the input array. -/
import proofs.«160133_j25744033972455_2_alg».proof.Proof.KI.R0Pieces
import proofs.«160133_j25744033972455_2_alg».proof.Proof.Math.Spec
import proofs.«160133_j25744033972455_2_alg».proof.Proof.Math.Payload
import proofs.«160133_j25744033972455_2_alg».proof.Proof.Math.Blocked
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Bridge
open scoped BigOperators

variable (V : (c : Dev nD) → (b : Ref sig .tc) → Buf (Elt Ideal) ((c : Thread nD τ).loc b))

/-- The block index maps of the first region, decided over its 64 points: at point `t = 16 i + 4 j + k` the left
    operand's block is `(i, k)`, the right operand's `(k, j)`, the result's `(i, j)`. -/
theorem idx0_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The left operand's block at point `t`, read at `(p, k)`, is the input array at row `1024 (t / 16) + p`, column
    `1024 (t % 4) + k`. -/
theorem iblk0_left (c : Dev nD) (t : Fin cfg0.N) (p k : Fin 1024) (r s : Fin 4096)
    (hr : r.val = 1024 * (t.val / 16) + p.val) (hs : s.val = 1024 * (t.val % 4) + k.val) :
    iblk0 V c 0 t (ix2 p k) = (V c main_v27 : S4k.Idx → EReal) (ix2 r s) := by
  obtain ⟨e0, e1, -, -, -, -⟩ := idx0_facts t
  unfold iblk0
  rw [View.read_apply]
  show V c main_v27 _ = V c main_v27 _
  congr 1
  funext a
  apply Fin.ext
  match a with
  | ⟨0, _⟩ => show win0_0.index t 0 * 1024 + 1 * p.val = r.val; rw [e0, hr]; omega
  | ⟨1, _⟩ => show win0_0.index t 1 * 1024 + 1 * k.val = s.val; rw [e1, hs]; omega

/-- The right operand's block at point `t`, read at `(k, q)`, is the input array at row `1024 (t % 4) + k`, column
    `1024 (t / 4 % 4) + q`. -/
theorem iblk0_right (c : Dev nD) (t : Fin cfg0.N) (k q : Fin 1024) (r s : Fin 4096)
    (hr : r.val = 1024 * (t.val % 4) + k.val) (hs : s.val = 1024 * (t.val / 4 % 4) + q.val) :
    iblk0 V c 1 t (ix2 k q) = (V c main_v27 : S4k.Idx → EReal) (ix2 r s) := by
  obtain ⟨-, -, e0, e1, -, -⟩ := idx0_facts t
  unfold iblk0
  rw [View.read_apply]
  show V c main_v27 _ = V c main_v27 _
  congr 1
  funext a
  apply Fin.ext
  match a with
  | ⟨0, _⟩ => show win0_1.index t 0 * 1024 + 1 * k.val = r.val; rw [e0, hr]; omega
  | ⟨1, _⟩ => show win0_1.index t 1 * 1024 + 1 * q.val = s.val; rw [e1, hs]; omega

/-- The input array of the first region as a matrix of extended reals. -/
abbrev arrA (c : Dev nD) : S4k.Idx → EReal := V c main_v27

/-- An index of the result array lies in the block written back at point `t` iff each coordinate lies in the
    block's range on its axis. -/
theorem mem_blk0 (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v28).slice (win0_2.rect t)).set ↔ _
  rw [View.set_slice_whole, Rect.mem_set_unit]
  exact Iff.rfl

/-- Every index `(r, s)` of the result array lies in the block written back at the point
    `16 (r / 1024) + 4 (s / 1024) + 3`. -/
theorem cover0 (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : grid0.N = 64 := N_0
  have hlt : 16 * ((i 0).val / 1024) + 4 * ((i 1).val / 1024) + 3 < grid0.N := by rw [hN]; omega
  obtain ⟨t, ht⟩ : ∃ t : Fin cfg0.N, t.val = 16 * ((i 0).val / 1024) + 4 * ((i 1).val / 1024) + 3 := ⟨⟨_, hlt⟩, rfl⟩
  refine ⟨t, (flush0_2 t).mpr (by rw [ht]; omega), ?_⟩
  rw [mem_blk0]
  obtain ⟨-, -, -, -, e0, e1⟩ := idx0_facts t
  intro a
  match a with
  | ⟨0, _⟩ =>
    show win0_2.index t 0 * 1024 ≤ (i 0).val ∧ (i 0).val < win0_2.index t 0 * 1024 + 1024
    rw [e0, ht]; omega
  | ⟨1, _⟩ =>
    show win0_2.index t 1 * 1024 ≤ (i 1).val ∧ (i 1).val < win0_2.index t 1 * 1024 + 1024
    rw [e1, ht]; omega

/-- A block product read through the two loaded blocks: when the left block reads the matrix `a` at block
    `(bi, kb)` and the right block reads the matrix `b` at block `(kb, bj)`, the product of the loaded blocks at
    `(p, q)` is the block product of `a` and `b`. -/
theorem blockProd_of_reads (a b : S4k.Idx → EReal) (x0 x1 : S1024x1024.Idx → EReal) (bi bj kb : Fin 4)
    (h0 : ∀ (p kk : Fin 1024) (r s : Fin 4096), r.val = 1024 * bi.val + p.val → s.val = 1024 * kb.val + kk.val →
      x0 (ix2 p kk) = a (ix2 r s))
    (h1 : ∀ (kk q : Fin 1024) (r s : Fin 4096), r.val = 1024 * kb.val + kk.val → s.val = 1024 * bj.val + q.val →
      x1 (ix2 kk q) = b (ix2 r s)) (p q : Fin 1024) :
    (∑ kk : Fin 1024, x0 (ix2 p kk) * x1 (ix2 kk q)) = blkProd a b bi bj kb (ix2 p q) := by
  unfold blkProd
  refine Finset.sum_congr rfl fun kk _ => ?_
  exact congrArg₂ (fun u v : EReal => u * v) (h0 p kk _ _ rfl rfl) (h1 kk q _ _ rfl rfl)

/-- The block product of the first region at point `t`: block row `t / 16`, block column `t / 4 % 4`, contraction
    block `t % 4` of the input matrix with itself. -/
theorem blockProd0 (c : Dev nD) (t : Fin cfg0.N) (bi bj : Fin 4) (k : ℕ) (hk : k < 4)
    (hbi : bi.val = t.val / 16) (hbj : bj.val = t.val / 4 % 4) (hkk : k = t.val % 4) (p q : Fin 1024) :
    (∑ kk : Fin 1024, (show S1024x1024.Idx → EReal from iblk0 V c 0 t) (ix2 p kk)
        * (show S1024x1024.Idx → EReal from iblk0 V c 1 t) (ix2 kk q))
      = blkProd (arrA V c) (arrA V c) bi bj ⟨k, hk⟩ (ix2 p q) :=
  blockProd_of_reads (arrA V c) (arrA V c) _ _ bi bj ⟨k, hk⟩
    (fun p kk r s hr hs => iblk0_left V c t p kk r s (by rw [hr, hbi]) (by rw [hs]; show 1024 * k + kk.val = _; rw [hkk]))
    (fun kk q r s hr hs => iblk0_right V c t kk q r s (by rw [hr]; show 1024 * k + kk.val = _; rw [hkk]) (by rw [hs, hbj])) p q

/-- The accumulator of the first region after the point `t` with `t % 4 = k` is the partial blocked sum over the
    contraction blocks `0 … k`: by induction on `k` inside one run of four points. -/
theorem acc0_closed (c : Dev nD) : ∀ (k : ℕ) (hk : k < 4) (t : Fin cfg0.N) (bi bj : Fin 4), t.val % 4 = k →
    bi.val = t.val / 16 → bj.val = t.val / 4 % 4 →
    acc0 V c t.val t.isLt = accSpec (arrA V c) (arrA V c) bi bj k hk
  | 0, hk, t, bi, bj, h0, hbi, hbj => by
    rw [acc0_first V c t h0]
    funext y
    obtain ⟨p, q, rfl⟩ : ∃ p q, y = ix2 p q := ⟨y 0, y 1, eq_ix2 y⟩
    refine (k0_pay2_apply _ _ _ p q).trans ?_
    rw [k0_pay1_apply]
    exact congrArg (fun z : EReal => 0 + z) (blockProd0 V c t bi bj 0 hk hbi hbj h0.symm p q)
  | k + 1, hk, t, bi, bj, hk1, hbi, hbj => by
    have hne : ¬ t.val % 4 = 0 := by omega
    have ht1 : t.val - 1 < cfg0.N := Nat.lt_of_le_of_lt (Nat.sub_le _ _) t.isLt
    have ih := acc0_closed c k (Nat.lt_of_succ_lt hk) ⟨t.val - 1, ht1⟩ bi bj (by show (t.val - 1) % 4 = k; omega)
      (by show bi.val = (t.val - 1) / 16; omega) (by show bj.val = (t.val - 1) / 4 % 4; omega)
    rw [acc0_next V c t hne]
    funext y
    obtain ⟨p, q, rfl⟩ : ∃ p q, y = ix2 p q := ⟨y 0, y 1, eq_ix2 y⟩
    refine (k0_pay2_apply _ _ _ p q).trans ?_
    exact congrArg₂ (fun u z : EReal => u + z) (congrFun ih (ix2 p q))
      (blockProd0 V c t bi bj (k + 1) hk hbi hbj hk1.symm p q)

/-- At the last point of a run of four, the accumulator read at `(p, q)` is the entry of the product of the input
    matrix with itself at row `1024 (t / 16) + p`, column `1024 (t / 4 % 4) + q`. -/
theorem acc0_last (c : Dev nD) (t : Fin cfg0.N) (h3 : t.val % 4 = 3) (bi bj : Fin 4)
    (hbi : bi.val = t.val / 16) (hbj : bj.val = t.val / 4 % 4) (p q : Fin 1024) :
    acc0 V c t.val t.isLt (ix2 p q)
      = mm (arrA V c) (arrA V c) (ix2 (⟨1024 * bi.val + p.val, by have := bi.isLt; have := p.isLt; omega⟩ : Fin 4096)
          (⟨1024 * bj.val + q.val, by have := bj.isLt; have := q.isLt; omega⟩ : Fin 4096)) := by
  rw [acc0_closed V c 3 (by decide) t bi bj h3 hbi hbj]
  exact accSpec_last (arrA V c) (arrA V c) bi bj p q

/-- What a point with `t % 4 = 3` writes back is its block of the thresholded square of the input matrix. -/
theorem flushed0_eq (c : Dev nD) (t : Fin cfg0.N) (hf : (cfg0.win 2).flush t = true) :
    (dat0 V c).flushed 2 t = ((cfg0.win 2).blk t).view.read (Elt Ideal) (Cert.Bridge.M2 (arrA V c)) := by
  have h3 : t.val % 4 = 3 := (flush0_2 t).mp hf
  have hN : cfg0.N = 64 := N_0
  have htl : t.val < 64 := hN ▸ t.isLt
  obtain ⟨-, -, -, -, e0, e1⟩ := idx0_facts t
  show (cfg0.win 2).cut (grid0.coords t) ((dat0 V c).after 2 t) = _
  rw [after0_out V c t h3]
  have key : ∀ y : S1024x1024.Idx, k0_pay3 (acc0 V c t.val t.isLt) y
      = Cert.Bridge.M2 (arrA V c) (((cfg0.win 2).blk t).view.emb y) := by
    intro y
    obtain ⟨p, q, rfl⟩ : ∃ p q, y = ix2 p q := ⟨y 0, y 1, eq_ix2 y⟩
    rw [k0_pay3_apply, acc0_last V c t h3 ⟨t.val / 16, by omega⟩ ⟨t.val / 4 % 4, by omega⟩ rfl rfl p q]
    show thr (mm (arrA V c) (arrA V c) _) = thr (mm (arrA V c) (arrA V c) _)
    congr 2
    funext a
    apply Fin.ext
    match a with
    | ⟨0, _⟩ => show 1024 * (t.val / 16) + p.val = win0_2.index t 0 * 1024 + 1 * p.val; rw [e0]; omega
    | ⟨1, _⟩ => show 1024 * (t.val / 4 % 4) + q.val = win0_2.index t 1 * 1024 + 1 * q.val; rw [e1]; omega
  funext y
  rw [View.read_apply]
  exact key y

/-- The result array of the first region ends holding the thresholded square of the input matrix. -/
theorem final0 (c : Dev nD) :
    ((dat0 (F := Ideal) V c).arrAt 2 cfg0.N : S4k.Idx → EReal) = Cert.Bridge.M2 (V c main_v27) :=
  (dat0 V c).arrAt_eq_of_cover 2 (Cert.Bridge.M2 (arrA V c)) (flushed0_eq V c) cover0

end Cert.KernelIdeal.Hand

end
-- ==== Proof.KI.R1Pieces.lean ====
/- Region 1, the values: what each control case leaves in the accumulator and in the output block, as the body's
   arithmetic applied to the blocks it loads; hence the accumulator's recursion along the grid (zero plus a product where
   the reduction coordinate is 0, the previous value plus a product elsewhere) and the stored output block where the
   coordinate is 3 (the thresholded accumulator combined with three input blocks). -/
import proofs.«160133_j25744033972455_2_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- The zero offsets of a whole-block access. -/
theorem hz1 : (![0, 0] : Fin 2 → Nat) = fun _ => 0 := funext fun a => by fin_cases a <;> rfl

/-! ## What each case leaves, as the body's arithmetic -/

/-- Reduction coordinate 0: the accumulator is left at the zero block plus the product of the two operand blocks (the
    zero block is stored, read back whole, and the sum stored whole over it). -/
theorem sout1_A_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S1024x1024 .f32) :
    sout1_A c i arg3 harg3 arg4 harg4 arg5 harg5 arg6 harg6 arg7 harg7 arg8 harg8 arg9 harg9 hc0 hc1 x0 x1 = k1_pay2 x1 (k1_pay1 (F := F)) x0 := by
  unfold sout1_A
  rw [View.read_writes_eq_canon _ _ _ (scover1_A c i arg3 harg3 arg4 harg4 arg5 harg5 arg6 harg6 arg7 harg7 arg8 harg8 arg9 harg9 hc0 hc1 x0 x1)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- Reduction coordinate 1 or 2: the accumulator is left at its previous contents plus the product. -/
theorem sout1_B_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S1024x1024 .f32) (xs0 : Vec F S1024x1024 .f32) :
    sout1_B c i arg3 harg3 arg4 harg4 arg5 harg5 arg6 harg6 arg7 harg7 arg8 harg8 arg9 harg9 hc0 hc1 x0 x1 xs0 = k1_pay2 x1 xs0 x0 := by
  unfold sout1_B
  rw [View.read_writes_eq_canon _ _ _ (scover1_B c i arg3 harg3 arg4 harg4 arg5 harg5 arg6 harg6 arg7 harg7 arg8 harg8 arg9 harg9 hc0 hc1 x0 x1 xs0)]
  unfold kernelRun1_B
  dsimp only
  rw [View.canon_unit_zero (S := S1024x1024) hz1]
  simp only [View.readAt_eq_ld, harg3.read_unread, harg4.read_unread, harg9.read_unread, View.ld_unit_zero (S := S1024x1024) hz1]

/-- Reduction coordinate 3: the same for the accumulator, -/
theorem sout1_C_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) :
    sout1_C c i arg3 harg3 arg4 harg4 arg5 harg5 arg6 harg6 arg7 harg7 arg8 harg8 arg9 harg9 hc0 hc1 x0 x1 x2 x3 x4 xs0 = k1_pay2 x1 xs0 x0 := by
  unfold sout1_C
  rw [View.read_writes_eq_canon _ _ _ (scover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S1024x1024) hz1]
  simp only [View.readAt_eq_ld, harg3.read_unread, harg4.read_unread, harg9.read_unread, View.ld_unit_zero (S := S1024x1024) hz1]

/-- and the output block is the combination of the accumulator just stored (read back whole) with the three other input
    blocks. -/
theorem out1_C_5_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S1024x1024 .f32) (x2 : Vec F S1024x1024 .f32) (x3 : Vec F S1024x1024 .f32) (x4 : Vec F S1024x1024 .f32) (xs0 : Vec F S1024x1024 .f32) :
    out1_C_5 c i arg3 harg3 arg4 harg4 arg5 harg5 arg6 harg6 arg7 harg7 arg8 harg8 arg9 harg9 hc0 hc1 x0 x1 x2 x3 x4 xs0 = k1_pay3 (k1_pay2 x1 xs0 x0) x2 x3 x4 := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S1024x1024) hz1, View.readCov_unit_zero (S := S1024x1024) _ hz1]
  simp only [View.readAt_eq_ld, harg3.read_unread, harg4.read_unread, harg5.read_unread, harg6.read_unread, harg7.read_unread, harg9.read_unread, View.ld_unit_zero (S := S1024x1024) hz1]

/-! ## The accumulator along the grid, and the stored block -/

/-- Where the reduction coordinate is 0 the accumulator restarts: zero plus the product of the point's operand blocks. -/
theorem acc1_first (c : Dev nD) (t : Fin cfg1.N) (h : t.val % 4 = 0) :
    acc1 V c t.val t.isLt = k1_pay2 (iblk1 V c 1 t) (k1_pay1 (F := F)) (iblk1 V c 0 t) :=
  have h1 : ¬t.val % 4 = 3 := by omega
  (acc1_A V c t h h1).trans
    (sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h) (fun e => h1 ((hcond1_1 t).mp e)) (iblk1 V c 0 t) (iblk1 V c 1 t))

/-- Elsewhere it is what the point before left plus the product of the point's operand blocks. -/
theorem acc1_next (c : Dev nD) (t : Fin cfg1.N) (h : ¬ t.val % 4 = 0) :
    acc1 V c t.val t.isLt = k1_pay2 (iblk1 V c 1 t) (acc1 V c (t.val - 1) (Nat.lt_of_le_of_lt (Nat.sub_le _ _) t.isLt)) (iblk1 V c 0 t) := by
  by_cases h1 : t.val % 4 = 3
  · exact (acc1_C V c t h h1).trans
      (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun e => h ((hcond1_0 t).mp e)) ((hcond1_1 t).mpr h1) (iblk1 V c 0 t) (iblk1 V c 1 t) (iblk1 V c 2 t) (iblk1 V c 3 t) (iblk1 V c 4 t) (acc1 V c (t.val - 1) (Nat.lt_of_le_of_lt (Nat.sub_le _ _) t.isLt)))
  · exact (acc1_B V c t h h1).trans
      (sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun e => h ((hcond1_0 t).mp e)) (fun e => h1 ((hcond1_1 t).mp e)) (iblk1 V c 0 t) (iblk1 V c 1 t) (acc1 V c (t.val - 1) (Nat.lt_of_le_of_lt (Nat.sub_le _ _) t.isLt)))

/-- Where the reduction coordinate is 3 the output window's staging buffer is left at the combination of the finished
    accumulator with the point's three other input blocks. -/
theorem after1_out (c : Dev nD) (t : Fin cfg1.N) (h : t.val % 4 = 3) :
    (dat1 V c).after 5 t = k1_pay3 (acc1 V c t.val t.isLt) (iblk1 V c 2 t) (iblk1 V c 3 t) (iblk1 V c 4 t) :=
  have h0 : ¬t.val % 4 = 0 := by omega
  (after1_5 V c t).trans ((out1_C V c t h0 h).trans
    ((out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun e => h0 ((hcond1_0 t).mp e)) ((hcond1_1 t).mpr h) (iblk1 V c 0 t) (iblk1 V c 1 t) (iblk1 V c 2 t) (iblk1 V c 3 t) (iblk1 V c 4 t) (acc1 V c (t.val - 1) (Nat.lt_of_le_of_lt (Nat.sub_le _ _) t.isLt))).trans
      (congrArg (fun a : Vec F S1024x1024 .f32 => k1_pay3 a (iblk1 V c 2 t) (iblk1 V c 3 t) (iblk1 V c 4 t)) (acc1_next V c t h0).symm)))

end Cert.KernelIdeal.Hand

end
-- ==== Proof.KI.Value1.lean ====
/- The value of the second block-matrix region at the ideal values: from the per-point facts of the body to the
   whole result array as one function of the input arrays. -/
import proofs.«160133_j25744033972455_2_alg».proof.Proof.KI.R1Pieces
import proofs.«160133_j25744033972455_2_alg».proof.Proof.KI.Value0

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Bridge
open scoped BigOperators

variable (V : (c : Dev nD) → (b : Ref sig .tc) → Buf (Elt Ideal) ((c : Thread nD τ).loc b))

/-- The block index maps of the second region, decided over its 64 points: at point `t = 16 i + 4 j + k` the left
    operand's block is `(i, k)`, the right operand's `(k, j)`, and the three added inputs' and the result's `(i, j)`. -/
theorem idx1_facts : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4
    ∧ win1_3.index t (0 : Fin 2) = t.val / 16 ∧ win1_3.index t (1 : Fin 2) = t.val / 4 % 4
    ∧ win1_4.index t (0 : Fin 2) = t.val / 16 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

/-- The left operand's block at point `t`, read at `(p, k)`, is the first input matrix at row `1024 (t / 16) + p`,
    column `1024 (t % 4) + k`. -/
theorem iblk1_left (c : Dev nD) (t : Fin cfg1.N) (p k : Fin 1024) (r s : Fin 4096)
    (hr : r.val = 1024 * (t.val / 16) + p.val) (hs : s.val = 1024 * (t.val % 4) + k.val) :
    iblk1 V c 0 t (ix2 p k) = (V c main_v27 : S4k.Idx → EReal) (ix2 r s) := by
  obtain ⟨e0, e1, -⟩ := idx1_facts t
  unfold iblk1
  rw [View.read_apply]
  show V c main_v27 _ = V c main_v27 _
  congr 1
  funext a
  apply Fin.ext
  match a with
  | ⟨0, _⟩ => show win1_0.index t 0 * 1024 + 1 * p.val = r.val; rw [e0, hr]; omega
  | ⟨1, _⟩ => show win1_0.index t 1 * 1024 + 1 * k.val = s.val; rw [e1, hs]; omega

/-- The right operand's block at point `t`, read at `(k, q)`, is the second input matrix at row `1024 (t % 4) + k`,
    column `1024 (t / 4 % 4) + q`. -/
theorem iblk1_right (c : Dev nD) (t : Fin cfg1.N) (k q : Fin 1024) (r s : Fin 4096)
    (hr : r.val = 1024 * (t.val % 4) + k.val) (hs : s.val = 1024 * (t.val / 4 % 4) + q.val) :
    iblk1 V c 1 t (ix2 k q) = (V c main_v28 : S4k.Idx → EReal) (ix2 r s) := by
  obtain ⟨-, -, e0, e1, -⟩ := idx1_facts t
  unfold iblk1
  rw [View.read_apply]
  show V c main_v28 _ = V c main_v28 _
  congr 1
  funext a
  apply Fin.ext
  match a with
  | ⟨0, _⟩ => show win1_1.index t 0 * 1024 + 1 * k.val = r.val; rw [e0, hr]; omega
  | ⟨1, _⟩ => show win1_1.index t 1 * 1024 + 1 * q.val = s.val; rw [e1, hs]; omega

/-- The three added inputs' blocks at point `t`, read at `(p, q)`, are their arrays at row `1024 (t / 16) + p`, column
    `1024 (t / 4 % 4) + q`. -/
theorem iblk1_in2 (c : Dev nD) (t : Fin cfg1.N) (p q : Fin 1024) (r s : Fin 4096)
    (hr : r.val = 1024 * (t.val / 16) + p.val) (hs : s.val = 1024 * (t.val / 4 % 4) + q.val) :
    iblk1 V c 2 t (ix2 p q) = (V c main_v26 : S4k.Idx → EReal) (ix2 r s) := by
  obtain ⟨-, -, -, -, e0, e1, -⟩ := idx1_facts t
  unfold iblk1
  rw [View.read_apply]
  show V c main_v26 _ = V c main_v26 _
  congr 1
  funext a
  apply Fin.ext
  match a with
  | ⟨0, _⟩ => show win1_2.index t 0 * 1024 + 1 * p.val = r.val; rw [e0, hr]; omega
  | ⟨1, _⟩ => show win1_2.index t 1 * 1024 + 1 * q.val = s.val; rw [e1, hs]; omega

theorem iblk1_in3 (c : Dev nD) (t : Fin cfg1.N) (p q : Fin 1024) (r s : Fin 4096)
    (hr : r.val = 1024 * (t.val / 16) + p.val) (hs : s.val = 1024 * (t.val / 4 % 4) + q.val) :
    iblk1 V c 3 t (ix2 p q) = (V c main_v24 : S4k.Idx → EReal) (ix2 r s) := by
  obtain ⟨-, -, -, -, -, -, e0, e1, -⟩ := idx1_facts t
  unfold iblk1
  rw [View.read_apply]
  show V c main_v24 _ = V c main_v24 _
  congr 1
  funext a
  apply Fin.ext
  match a with
  | ⟨0, _⟩ => show win1_3.index t 0 * 1024 + 1 * p.val = r.val; rw [e0, hr]; omega
  | ⟨1, _⟩ => show win1_3.index t 1 * 1024 + 1 * q.val = s.val; rw [e1, hs]; omega

theorem iblk1_in4 (c : Dev nD) (t : Fin cfg1.N) (p q : Fin 1024) (r s : Fin 4096)
    (hr : r.val = 1024 * (t.val / 16) + p.val) (hs : s.val = 1024 * (t.val / 4 % 4) + q.val) :
    iblk1 V c 4 t (ix2 p q) = (V c main_v28 : S4k.Idx → EReal) (ix2 r s) := by
  obtain ⟨-, -, -, -, -, -, -, -, e0, e1, -⟩ := idx1_facts t
  unfold iblk1
  rw [View.read_apply]
  show V c main_v28 _ = V c main_v28 _
  congr 1
  funext a
  apply Fin.ext
  match a with
  | ⟨0, _⟩ => show win1_4.index t 0 * 1024 + 1 * p.val = r.val; rw [e0, hr]; omega
  | ⟨1, _⟩ => show win1_4.index t 1 * 1024 + 1 * q.val = s.val; rw [e1, hs]; omega

/-- An index of the result array lies in the block written back at point `t` iff each coordinate lies in the
    block's range on its axis. -/
theorem mem_blk1 (t : Fin cfg1.N) (i : S4096x4096.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v29).slice (win1_5.rect t)).set ↔ _
  rw [View.set_slice_whole, Rect.mem_set_unit]
  exact Iff.rfl

/-- Every index `(r, s)` of the result array lies in the block written back at the point
    `16 (r / 1024) + 4 (s / 1024) + 3`. -/
theorem cover1 (i : S4096x4096.Idx) :
    ∃ t : Fin cfg1.N, (cfg1.win 5).flush t = true ∧ i ∈ ((cfg1.win 5).blk t).view.set := by
  have h0 : (i 0).val < 4096 := (i 0).isLt
  have h1 : (i 1).val < 4096 := (i 1).isLt
  have hN : grid1.N = 64 := N_1
  have hlt : 16 * ((i 0).val / 1024) + 4 * ((i 1).val / 1024) + 3 < grid1.N := by rw [hN]; omega
  obtain ⟨t, ht⟩ : ∃ t : Fin cfg1.N, t.val = 16 * ((i 0).val / 1024) + 4 * ((i 1).val / 1024) + 3 := ⟨⟨_, hlt⟩, rfl⟩
  refine ⟨t, (flush1_5 t).mpr (by rw [ht]; omega), ?_⟩
  rw [mem_blk1]
  obtain ⟨-, -, -, -, -, -, -, -, -, -, e0, e1⟩ := idx1_facts t
  intro a
  match a with
  | ⟨0, _⟩ =>
    show win1_5.index t 0 * 1024 ≤ (i 0).val ∧ (i 0).val < win1_5.index t 0 * 1024 + 1024
    rw [e0, ht]; omega
  | ⟨1, _⟩ =>
    show win1_5.index t 1 * 1024 ≤ (i 1).val ∧ (i 1).val < win1_5.index t 1 * 1024 + 1024
    rw [e1, ht]; omega

/-- The block product of the second region at point `t`: block row `t / 16`, block column `t / 4 % 4`, contraction
    block `t % 4` of the first input matrix with the second. -/
theorem blockProd1 (c : Dev nD) (t : Fin cfg1.N) (bi bj : Fin 4) (k : ℕ) (hk : k < 4)
    (hbi : bi.val = t.val / 16) (hbj : bj.val = t.val / 4 % 4) (hkk : k = t.val % 4) (p q : Fin 1024) :
    (∑ kk : Fin 1024, (show S1024x1024.Idx → EReal from iblk1 V c 0 t) (ix2 p kk)
        * (show S1024x1024.Idx → EReal from iblk1 V c 1 t) (ix2 kk q))
      = blkProd (V c main_v27) (V c main_v28) bi bj ⟨k, hk⟩ (ix2 p q) :=
  blockProd_of_reads (V c main_v27) (V c main_v28) _ _ bi bj ⟨k, hk⟩
    (fun p kk r s hr hs => iblk1_left V c t p kk r s (by rw [hr, hbi]) (by rw [hs]; show 1024 * k + kk.val = _; rw [hkk]))
    (fun kk q r s hr hs => iblk1_right V c t kk q r s (by rw [hr]; show 1024 * k + kk.val = _; rw [hkk]) (by rw [hs, hbj])) p q

/-- The accumulator of the second region after the point `t` with `t % 4 = k` is the partial blocked sum over the
    contraction blocks `0 … k`: by induction on `k` inside one run of four points. -/
theorem acc1_closed (c : Dev nD) : ∀ (k : ℕ) (hk : k < 4) (t : Fin cfg1.N) (bi bj : Fin 4), t.val % 4 = k →
    bi.val = t.val / 16 → bj.val = t.val / 4 % 4 →
    acc1 V c t.val t.isLt = accSpec (V c main_v27) (V c main_v28) bi bj k hk
  | 0, hk, t, bi, bj, h0, hbi, hbj => by
    rw [acc1_first V c t h0]
    funext y
    obtain ⟨p, q, rfl⟩ : ∃ p q, y = ix2 p q := ⟨y 0, y 1, eq_ix2 y⟩
    refine (k1_pay2_apply _ _ _ p q).trans ?_
    rw [k1_pay1_apply]
    exact congrArg (fun z : EReal => 0 + z) (blockProd1 V c t bi bj 0 hk hbi hbj h0.symm p q)
  | k + 1, hk, t, bi, bj, hk1, hbi, hbj => by
    have hne : ¬ t.val % 4 = 0 := by omega
    have ht1 : t.val - 1 < cfg1.N := Nat.lt_of_le_of_lt (Nat.sub_le _ _) t.isLt
    have ih := acc1_closed c k (Nat.lt_of_succ_lt hk) ⟨t.val - 1, ht1⟩ bi bj (by show (t.val - 1) % 4 = k; omega)
      (by show bi.val = (t.val - 1) / 16; omega) (by show bj.val = (t.val - 1) / 4 % 4; omega)
    rw [acc1_next V c t hne]
    funext y
    obtain ⟨p, q, rfl⟩ : ∃ p q, y = ix2 p q := ⟨y 0, y 1, eq_ix2 y⟩
    refine (k1_pay2_apply _ _ _ p q).trans ?_
    exact congrArg₂ (fun u z : EReal => u + z) (congrFun ih (ix2 p q))
      (blockProd1 V c t bi bj (k + 1) hk hbi hbj hk1.symm p q)

/-- At the last point of a run of four, the accumulator read at `(p, q)` is the entry of the product of the two input
    matrices at row `1024 (t / 16) + p`, column `1024 (t / 4 % 4) + q`. -/
theorem acc1_last (c : Dev nD) (t : Fin cfg1.N) (h3 : t.val % 4 = 3) (bi bj : Fin 4)
    (hbi : bi.val = t.val / 16) (hbj : bj.val = t.val / 4 % 4) (p q : Fin 1024) :
    acc1 V c t.val t.isLt (ix2 p q)
      = mm (V c main_v27) (V c main_v28) (ix2 (⟨1024 * bi.val + p.val, by have := bi.isLt; have := p.isLt; omega⟩ : Fin 4096)
          (⟨1024 * bj.val + q.val, by have := bj.isLt; have := q.isLt; omega⟩ : Fin 4096)) := by
  rw [acc1_closed V c 3 (by decide) t bi bj h3 hbi hbj]
  exact accSpec_last (V c main_v27) (V c main_v28) bi bj p q

/-- What a point with `t % 4 = 3` writes back is its block of the four-term combination: when the first input is the
    matrix `a` (held by two of the arrays), the second the thresholded square of `a`, and the added input `p0`. -/
theorem flushed1_eq (c : Dev nD) (a p0 : S4k.Idx → EReal) (h27 : (V c main_v27 : S4k.Idx → EReal) = a)
    (h24 : (V c main_v24 : S4k.Idx → EReal) = a) (h26 : (V c main_v26 : S4k.Idx → EReal) = p0)
    (h28 : (V c main_v28 : S4k.Idx → EReal) = Cert.Bridge.M2 a)
    (t : Fin cfg1.N) (hf : (cfg1.win 5).flush t = true) :
    (dat1 V c).flushed 5 t = ((cfg1.win 5).blk t).view.read (Elt Ideal) (Cert.Bridge.out a p0) := by
  have h3 : t.val % 4 = 3 := (flush1_5 t).mp hf
  have hN : cfg1.N = 64 := N_1
  have htl : t.val < 64 := hN ▸ t.isLt
  obtain ⟨-, -, -, -, -, -, -, -, -, -, e0, e1⟩ := idx1_facts t
  show (cfg1.win 5).cut (grid1.coords t) ((dat1 V c).after 5 t) = _
  rw [after1_out V c t h3]
  have key : ∀ y : S1024x1024.Idx, k1_pay3 (acc1 V c t.val t.isLt) (iblk1 V c 2 t) (iblk1 V c 3 t) (iblk1 V c 4 t) y
      = Cert.Bridge.out a p0 (((cfg1.win 5).blk t).view.emb y) := by
    intro y
    obtain ⟨p, q, rfl⟩ : ∃ p q, y = ix2 p q := ⟨y 0, y 1, eq_ix2 y⟩
    have hr : ∀ (r s : Fin 4096), r.val = 1024 * (t.val / 16) + p.val → s.val = 1024 * (t.val / 4 % 4) + q.val →
        ((cfg1.win 5).blk t).view.emb (ix2 p q) = (ix2 r s : S4k.Idx) := by
      intro r s hr hs
      funext a
      apply Fin.ext
      match a with
      | ⟨0, _⟩ => show win1_5.index t 0 * 1024 + 1 * p.val = r.val; rw [e0, hr]; omega
      | ⟨1, _⟩ => show win1_5.index t 1 * 1024 + 1 * q.val = s.val; rw [e1, hs]; omega
    refine (k1_pay3_apply _ _ _ _ (ix2 p q)).trans ?_
    rw [hr ⟨1024 * (t.val / 16) + p.val, by have := p.isLt; omega⟩ ⟨1024 * (t.val / 4 % 4) + q.val, by have := q.isLt; omega⟩ rfl rfl]
    rw [acc1_last V c t h3 ⟨t.val / 16, by omega⟩ ⟨t.val / 4 % 4, by omega⟩ rfl rfl p q]
    have e2 := iblk1_in2 V c t p q ⟨1024 * (t.val / 16) + p.val, by have := p.isLt; omega⟩ ⟨1024 * (t.val / 4 % 4) + q.val, by have := q.isLt; omega⟩ rfl rfl
    have e3 := iblk1_in3 V c t p q ⟨1024 * (t.val / 16) + p.val, by have := p.isLt; omega⟩ ⟨1024 * (t.val / 4 % 4) + q.val, by have := q.isLt; omega⟩ rfl rfl
    have e4 := iblk1_in4 V c t p q ⟨1024 * (t.val / 16) + p.val, by have := p.isLt; omega⟩ ⟨1024 * (t.val / 4 % 4) + q.val, by have := q.isLt; omega⟩ rfl rfl
    rw [h26] at e2
    rw [h24] at e3
    rw [h28] at e4
    rw [h27, h28]
    unfold Cert.Bridge.out
    exact congrArg₂ (fun u v : EReal => u + v)
      (congrArg₂ (fun u v : EReal => u + v)
        (congrArg₂ (fun u v : EReal => u + v) (congrArg (fun u : EReal => th0 * u) e2) (congrArg (fun u : EReal => th1 * u) e3))
        (congrArg (fun u : EReal => th2 * u) e4)) rfl
  funext y
  rw [View.read_apply]
  exact key y

/-- The result array of the second region ends holding the four-term combination of its inputs. -/
theorem final1 (c : Dev nD) (a p0 : S4k.Idx → EReal) (h27 : (V c main_v27 : S4k.Idx → EReal) = a)
    (h24 : (V c main_v24 : S4k.Idx → EReal) = a) (h26 : (V c main_v26 : S4k.Idx → EReal) = p0)
    (h28 : (V c main_v28 : S4k.Idx → EReal) = Cert.Bridge.M2 a) :
    ((dat1 (F := Ideal) V c).arrAt 5 cfg1.N : S4k.Idx → EReal) = Cert.Bridge.out a p0 :=
  (dat1 V c).arrAt_eq_of_cover 5 (Cert.Bridge.out a p0) (flushed1_eq V c a p0 h27 h24 h26 h28) cover1

end Cert.KernelIdeal.Hand

end
-- ==== Proof.Math.ScatterDims.lean ====
/- The two scatter dimension records of this certificate read at an index: where an update lands.
   Both programs scatter at the same table of wrapped (row, column) pairs, one pair per edge. The reference's
   scatter adds one scalar per edge into a 4096×4096 array; the kernel program's adds a window of two channels
   per edge into a 4096×4096×2 array. This module computes, for each record, the start and window coordinates of
   an update index, and characterises when the update lands on a given cell. -/
import proofs.«160133_j25744033972455_2_alg».proof.Proof.Gen.ReferenceIdeal.Read
import proofs.«160133_j25744033972455_2_alg».proof.Proof.Gen.KernelIdeal.Launch
import Idealize.ShloMosaic.Lib.ValueIdx
import Idealize.ShloMosaic.Lib.Pipeline.Value
import Idealize.ShloMosaic.Lib.StableHlo.Run
import Idealize.ShloMosaic.PureOps.Ideal.Laws

noncomputable section

namespace Cert.Bridge

open Idealize.ShloMosaic Idealize.ShloMosaic.TcCoe Idealize.SL.Sem Idealize.ShloMosaic.StableHlo

abbrev d2 := Cert.ReferenceIdeal.scatter_S4096x4096_S131072x2_S131072_n_01_01_1
abbrev d3 := Cert.KernelIdeal.scatter_S4096x4096x2_S131072x2_S131072x2_1_01_01_1

abbrev SE : Shape := ⟨1, ![131072]⟩
abbrev SE2 : Shape := ⟨2, ![131072, 2]⟩
abbrev SN : Shape := ⟨2, ![4096, 4096]⟩
abbrev SN2 : Shape := ⟨3, ![4096, 4096, 2]⟩

theorem d2_siIdx (j : SE.Idx) (c : Fin d2.scatterDimsToOperandDims.length) :
    d2.siIdx j c = ValueIdx.ix2 (j 0) ⟨c.val, c.isLt⟩ := by
  funext b
  match b with
  | ⟨0, _⟩ => rfl
  | ⟨1, _⟩ => rfl

theorem d2_start0 (j : SE.Idx) (idx : IVec SE2 32) :
    d2.start j idx 0 = (idx (ValueIdx.ix2 (j 0) 0)).toInt := by
  unfold ScatterDims.start
  rw [dif_pos (by decide), d2_siIdx]
  rfl

theorem d2_start1 (j : SE.Idx) (idx : IVec SE2 32) :
    d2.start j idx 1 = (idx (ValueIdx.ix2 (j 0) 1)).toInt := by
  unfold ScatterDims.start
  rw [dif_pos (by decide), d2_siIdx]
  rfl

theorem d2_window (j : SE.Idx) (a : Fin SN.rank) : d2.window j a = 0 := by
  unfold ScatterDims.window
  rw [dif_neg (by revert a; decide)]

theorem d2_result (j : SE.Idx) (idx : IVec SE2 32) (i : SN.Idx) :
    d2.resultIdx? j idx = some i ↔
      (idx (ValueIdx.ix2 (j 0) 0)).toInt = ((i 0).val : Int) ∧ (idx (ValueIdx.ix2 (j 0) 1)).toInt = ((i 1).val : Int) := by
  unfold ScatterDims.resultIdx?
  constructor
  · intro h
    split at h
    · next hb =>
      have h' := Option.some.inj h
      have h0 := congrArg (fun f => ((f 0).val : Int)) h'
      have h1 := congrArg (fun f => ((f 1).val : Int)) h'
      have b0 := hb 0
      have b1 := hb 1
      rw [d2_start0, d2_window] at b0
      rw [d2_start1, d2_window] at b1
      dsimp only at h0 h1
      rw [d2_start0, d2_window] at h0
      rw [d2_start1, d2_window] at h1
      constructor <;> omega
    · exact absurd h (by simp)
  · rintro ⟨h0, h1⟩
    have hb : ∀ a, 0 ≤ d2.start j idx a + d2.window j a ∧ d2.start j idx a + d2.window j a < SN.size a := by
      intro a
      match a with
      | ⟨0, _⟩ =>
        show 0 ≤ d2.start j idx 0 + d2.window j 0 ∧ d2.start j idx 0 + d2.window j 0 < (4096 : Nat)
        rw [d2_start0, d2_window, h0]; have hlt : (i 0).val < 4096 := (i 0).isLt; constructor <;> omega
      | ⟨1, _⟩ =>
        show 0 ≤ d2.start j idx 1 + d2.window j 1 ∧ d2.start j idx 1 + d2.window j 1 < (4096 : Nat)
        rw [d2_start1, d2_window, h1]; have hlt : (i 1).val < 4096 := (i 1).isLt; constructor <;> omega
    rw [dif_pos hb]
    congr 1
    funext a
    match a with
    | ⟨0, _⟩ =>
      apply Fin.ext
      show (d2.start j idx 0 + d2.window j 0).toNat = (i 0).val
      rw [d2_start0, d2_window, h0]; omega
    | ⟨1, _⟩ =>
      apply Fin.ext
      show (d2.start j idx 1 + d2.window j 1).toNat = (i 1).val
      rw [d2_start1, d2_window, h1]; omega

theorem d3_siIdx (j : SE2.Idx) (c : Fin d3.scatterDimsToOperandDims.length) :
    d3.siIdx j c = ValueIdx.ix2 (j 0) ⟨c.val, c.isLt⟩ := by
  funext b
  match b with
  | ⟨0, _⟩ => rfl
  | ⟨1, _⟩ => rfl

theorem d3_start0 (j : SE2.Idx) (idx : IVec SE2 32) :
    d3.start j idx 0 = (idx (ValueIdx.ix2 (j 0) 0)).toInt := by
  unfold ScatterDims.start
  rw [dif_pos (by decide), d3_siIdx]
  rfl

theorem d3_start1 (j : SE2.Idx) (idx : IVec SE2 32) :
    d3.start j idx 1 = (idx (ValueIdx.ix2 (j 0) 1)).toInt := by
  unfold ScatterDims.start
  rw [dif_pos (by decide), d3_siIdx]
  rfl

theorem d3_start2 (j : SE2.Idx) (idx : IVec SE2 32) : d3.start j idx 2 = 0 := by
  unfold ScatterDims.start
  rw [dif_neg (by decide)]

theorem d3_window0 (j : SE2.Idx) : d3.window j 0 = 0 := by
  unfold ScatterDims.window
  rw [dif_neg (by decide)]

theorem d3_window1 (j : SE2.Idx) : d3.window j 1 = 0 := by
  unfold ScatterDims.window
  rw [dif_neg (by decide)]

theorem d3_window2 (j : SE2.Idx) : d3.window j 2 = (j 1).val := by
  unfold ScatterDims.window
  rw [dif_pos (by decide)]
  rfl

theorem d3_result (j : SE2.Idx) (idx : IVec SE2 32) (i : SN2.Idx) :
    d3.resultIdx? j idx = some i ↔
      (idx (ValueIdx.ix2 (j 0) 0)).toInt = ((i 0).val : Int) ∧ (idx (ValueIdx.ix2 (j 0) 1)).toInt = ((i 1).val : Int)
        ∧ (j 1).val = (i 2).val := by
  unfold ScatterDims.resultIdx?
  constructor
  · intro h
    split at h
    · next hb =>
      have h' := Option.some.inj h
      have h0 := congrArg (fun f => ((f 0).val : Int)) h'
      have h1 := congrArg (fun f => ((f 1).val : Int)) h'
      have h2 := congrArg (fun f => ((f 2).val : Int)) h'
      have b0 := hb 0
      have b1 := hb 1
      have b2 := hb 2
      rw [d3_start0, d3_window0] at b0
      rw [d3_start1, d3_window1] at b1
      rw [d3_start2, d3_window2] at b2
      dsimp only at h0 h1 h2
      rw [d3_start0, d3_window0] at h0
      rw [d3_start1, d3_window1] at h1
      rw [d3_start2, d3_window2] at h2
      refine ⟨?_, ?_, ?_⟩ <;> omega
    · exact absurd h (by simp)
  · rintro ⟨h0, h1, h2⟩
    have hb : ∀ a, 0 ≤ d3.start j idx a + d3.window j a ∧ d3.start j idx a + d3.window j a < SN2.size a := by
      intro a
      match a with
      | ⟨0, _⟩ =>
        show 0 ≤ d3.start j idx 0 + d3.window j 0 ∧ d3.start j idx 0 + d3.window j 0 < (4096 : Nat)
        rw [d3_start0, d3_window0, h0]; have hlt : (i 0).val < 4096 := (i 0).isLt; constructor <;> omega
      | ⟨1, _⟩ =>
        show 0 ≤ d3.start j idx 1 + d3.window j 1 ∧ d3.start j idx 1 + d3.window j 1 < (4096 : Nat)
        rw [d3_start1, d3_window1, h1]; have hlt : (i 1).val < 4096 := (i 1).isLt; constructor <;> omega
      | ⟨2, _⟩ =>
        show 0 ≤ d3.start j idx 2 + d3.window j 2 ∧ d3.start j idx 2 + d3.window j 2 < (2 : Nat)
        rw [d3_start2, d3_window2, h2]; have hlt : (i 2).val < 2 := (i 2).isLt; constructor <;> omega
    rw [dif_pos hb]
    congr 1
    funext a
    match a with
    | ⟨0, _⟩ =>
      apply Fin.ext
      show (d3.start j idx 0 + d3.window j 0).toNat = (i 0).val
      rw [d3_start0, d3_window0, h0]; omega
    | ⟨1, _⟩ =>
      apply Fin.ext
      show (d3.start j idx 1 + d3.window j 1).toNat = (i 1).val
      rw [d3_start1, d3_window1, h1]; omega
    | ⟨2, _⟩ =>
      apply Fin.ext
      show (d3.start j idx 2 + d3.window j 2).toNat = (i 2).val
      rw [d3_start2, d3_window2, h2]; omega

end Cert.Bridge

end
-- ==== Proof.Math.RefDefs.lean ====
/- The two matrices the reference program builds from the edge list, at the ideal values: the weighted adjacency
   matrix and the edge-count matrix, each one scatter-add into a zero matrix. -/
import proofs.«160133_j25744033972455_2_alg».proof.Proof.Gen.ReferenceIdeal.Read
import proofs.«160133_j25744033972455_2_alg».proof.Proof.Math.Spec

noncomputable section

namespace Cert.Bridge

open Idealize.ShloMosaic

/-- The reference's adjacency matrix: the edge weights added into a zero matrix at the edges' endpoints. -/
def Aref (e : (⟨Cert.ReferenceIdeal.S2x131072, .i32⟩ : BufTy).Contents (Elt Ideal))
    (w : (⟨Cert.ReferenceIdeal.S131072, .f32⟩ : BufTy).Contents (Elt Ideal)) : S4k.Idx → EReal :=
  Cert.ReferenceIdeal.Read.val_main_v18 (F := Ideal) e w

/-- The reference's edge-count matrix: ones added into a zero matrix at the edges' endpoints. -/
def P0ref (e : (⟨Cert.ReferenceIdeal.S2x131072, .i32⟩ : BufTy).Contents (Elt Ideal)) : S4k.Idx → EReal :=
  Cert.ReferenceIdeal.Read.val_main_v34 (F := Ideal) e

end Cert.Bridge

end
-- ==== Proof.Math.Scatter.lean ====
/- The host side of the kernel program at the ideal values: the two matrices its host operations build before the
   first kernel call are the reference's two matrices.
   The reference makes two scatter-adds into 4096 × 4096 zero matrices at one table of wrapped (row, column) pairs:
   the edge weights (the adjacency matrix) and ones (the edge-count matrix). The kernel program makes ONE scatter-add
   into a 4096 × 4096 × 2 zero array, of the two-channel update (weight, one) of each edge at the same table, and
   slices the two channels out. An update index (edge, channel) of the two-channel scatter lands on (r, c, ch) exactly
   when the edge's wrapped pair is (r, c) and the channel is ch, so channel ch of the scattered array at (r, c) is the
   sum over the edges landing on (r, c) of channel ch of the update: the weight for channel 0, one for channel 1. -/
import proofs.«160133_j25744033972455_2_alg».proof.Proof.Math.ScatterDims
import proofs.«160133_j25744033972455_2_alg».proof.Proof.Math.RefDefs

noncomputable section

namespace Cert.Bridge

open Idealize.ShloMosaic Idealize.ShloMosaic.TcCoe Idealize.SL.Sem Idealize.ShloMosaic.StableHlo

/-! ## The two scatters as sums over the edges landing on a cell -/

/-- An update index of the two-channel scatter that lands on channel `ch` of a cell is the edge's index with `ch`
    appended. -/
theorem d3_lands_eq (idx : IVec SE2 32) (i : SN.Idx) (ch : Fin 2) (j : SE2.Idx)
    (hj : d3.resultIdx? j idx = some (ValueIdx.ix3 (i 0) (i 1) ch)) : ValueIdx.ix2 (j 0) ch = j := by
  have h2 := ((d3_result _ _ _).1 hj).2.2
  funext a
  match a with
  | ⟨0, _⟩ => rfl
  | ⟨1, _⟩ => exact Fin.ext h2.symm

/-- The two-channel scatter at channel `ch` of cell `i`: the base plus the sum, over the edges whose wrapped pair is
    `i`, of the update's channel `ch`. -/
theorem scatter3_apply (idx : IVec SE2 32) (x3 : SN2.Idx → EReal) (upd : SE2.Idx → EReal) (i : SN.Idx) (ch : Fin 2) :
    Ideal.hostScatterAdd d3 x3 idx upd (ValueIdx.ix3 (i 0) (i 1) ch)
      = x3 (ValueIdx.ix3 (i 0) (i 1) ch)
        + ∑ j ∈ Finset.univ.filter (fun j : SE.Idx => d2.resultIdx? j idx = some i), upd (ValueIdx.ix2 (j 0) ch) := by
  unfold Ideal.hostScatterAdd
  refine congrArg (fun s => x3 (ValueIdx.ix3 (i 0) (i 1) ch) + s) ?_
  refine Finset.sum_nbij' (fun j => ValueIdx.ix1 (j 0)) (fun e => ValueIdx.ix2 (e 0) ch) ?_ ?_ ?_ ?_ ?_
  · intro j hj
    rw [Finset.mem_filter] at hj ⊢
    have h := (d3_result _ _ _).1 hj.2
    exact ⟨Finset.mem_univ _, (d2_result _ _ _).2 ⟨h.1, h.2.1⟩⟩
  · intro e he
    rw [Finset.mem_filter] at he ⊢
    have h := (d2_result _ _ _).1 he.2
    exact ⟨Finset.mem_univ _, (d3_result _ _ _).2 ⟨h.1, h.2, rfl⟩⟩
  · intro j hj
    rw [Finset.mem_filter] at hj
    exact d3_lands_eq idx i ch j hj.2
  · intro e he
    exact (ValueIdx.eq_ix1 e).symm
  · intro j hj
    rw [Finset.mem_filter] at hj
    exact congrArg upd (d3_lands_eq idx i ch j hj.2).symm

/-- The one-channel scatter at cell `i`: the base plus the sum of the updates of the edges whose wrapped pair is `i`. -/
theorem scatter2_apply (idx : IVec SE2 32) (x2 : SN.Idx → EReal) (upd : SE.Idx → EReal) (i : SN.Idx) :
    Ideal.hostScatterAdd d2 x2 idx upd i
      = x2 i + ∑ j ∈ Finset.univ.filter (fun j : SE.Idx => d2.resultIdx? j idx = some i), upd j := rfl

/-! ## The reference's two scatters -/

section Ref
open Cert.ReferenceIdeal Cert.ReferenceIdeal.Gen Cert.ReferenceIdeal.Read

/-- The reference's two scatters use one table of wrapped pairs. -/
theorem idx_same (e : (⟨S2x131072, .i32⟩ : BufTy).Contents (Elt Ideal)) :
    val_main_v32 (F := Ideal) e = val_main_v17 (F := Ideal) e := rfl

/-- The reference's weighted scatter at a cell: the sum of the weights of the edges whose wrapped pair is the cell. -/
theorem v18_apply (e : (⟨S2x131072, .i32⟩ : BufTy).Contents (Elt Ideal)) (w : (⟨S131072, .f32⟩ : BufTy).Contents (Elt Ideal))
    (i : SN.Idx) :
    val_main_v18 (F := Ideal) e w i = Ideal.ofBits .f32 0x00000000#32
      + ∑ j ∈ Finset.univ.filter (fun j : SE.Idx => d2.resultIdx? j (val_main_v17 (F := Ideal) e) = some i), w j := by
  unfold val_main_v18
  refine (scatter2_apply _ _ _ i).trans ?_
  rw [val_main_v4_apply, val_main_cst_apply]
  rfl

/-- The reference's unit scatter at a cell: one per edge whose wrapped pair is the cell. -/
theorem v34_apply (e : (⟨S2x131072, .i32⟩ : BufTy).Contents (Elt Ideal)) (i : SN.Idx) :
    val_main_v34 (F := Ideal) e i = Ideal.ofBits .f32 0x00000000#32
      + ∑ j ∈ Finset.univ.filter (fun j : SE.Idx => d2.resultIdx? j (val_main_v17 (F := Ideal) e) = some i),
          Ideal.ofBits .f32 0x3F800000#32 := by
  unfold val_main_v34
  rw [idx_same]
  refine (scatter2_apply _ _ _ i).trans ?_
  rw [val_main_v19_apply, val_main_cst_3_apply]
  refine congrArg (fun s => Ideal.ofBits .f32 0x00000000#32 + s) (Finset.sum_congr rfl fun j _ => ?_)
  rw [val_main_v33_apply, val_main_cst_8_apply]
  rfl

end Ref

/-! ## The kernel program's host prefix -/

section Ker
open Cert.KernelIdeal Cert.KernelIdeal.Gen

/-- The kernel program's update table: the edge weight on channel 0, the constant one on channel 1. -/
def updK (w : (⟨S131072, .f32⟩ : BufTy).Contents (Elt Ideal)) : (⟨S131072x2, .f32⟩ : BufTy).Contents (Elt Ideal) :=
  concatenate S131072x2 1
    [⟨S131072x1, broadcastInDim S131072x1 ![0] bcast_S131072_S131072x1_0 w⟩,
     ⟨S131072x1, broadcastInDim S131072x1 ![0] bcast_S131072_S131072x1_0
        (broadcastInDim S131072 ![] bcast_S_S131072 (constant (F := Ideal) S_ .f32 0x3F800000#32))⟩]
    concatenates_S131072x1_S131072x1_S131072x2_d1

/-- The kernel program's zero base of the two-channel scatter. -/
def zeroK : (⟨S4096x4096x2, .f32⟩ : BufTy).Contents (Elt Ideal) :=
  broadcastInDim S4096x4096x2 ![] bcast_S_S4096x4096x2 (constant (F := Ideal) S_ .f32 0x00000000#32)

/-- Channel 0 of the update table is the edge weight. -/
theorem updK_ch0 (w : (⟨S131072, .f32⟩ : BufTy).Contents (Elt Ideal)) (a : Fin 131072) :
    updK w (ValueIdx.ix2 a 0) = w (ValueIdx.ix1 a) := by
  unfold updK
  refine (concatenate_pair_apply_left (s₁ := S131072x1) (s₂ := S131072x1) (1 : Fin 2) _ _ concatenates_S131072x1_S131072x1_S131072x2_d1
    (ValueIdx.ix2 a (0 : Fin 2)) rfl (ValueIdx.ix2 a (0 : Fin 1)) (fun b => match b with
      | ⟨0, _⟩ => rfl
      | ⟨1, _⟩ => rfl)).trans ?_
  exact broadcastInDim_apply _ bcast_S131072_S131072x1_0 w (ValueIdx.ix2 a (0 : Fin 1)) (ValueIdx.ix1 a) (fun b => match b with
    | ⟨0, _⟩ => by show a.val = if (131072 : Nat) = 1 then 0 else a.val; rw [if_neg (by decide)])

/-- Channel 1 of the update table is the constant one. -/
theorem updK_ch1 (w : (⟨S131072, .f32⟩ : BufTy).Contents (Elt Ideal)) (a : Fin 131072) :
    updK w (ValueIdx.ix2 a 1) = Ideal.ofBits .f32 0x3F800000#32 := by
  unfold updK
  refine (concatenate_pair_apply_right (s₁ := S131072x1) (s₂ := S131072x1) (1 : Fin 2) _ _ concatenates_S131072x1_S131072x1_S131072x2_d1
    (ValueIdx.ix2 a (1 : Fin 2)) rfl rfl (ValueIdx.ix2 a (0 : Fin 1)) (fun b => match b with
      | ⟨0, _⟩ => fun _ => rfl
      | ⟨1, _⟩ => fun h => absurd rfl h) rfl).trans ?_
  refine (broadcastInDim_apply _ bcast_S131072_S131072x1_0 _ (ValueIdx.ix2 a (0 : Fin 1)) (ValueIdx.ix1 a) (fun b => match b with
    | ⟨0, _⟩ => by show a.val = if (131072 : Nat) = 1 then 0 else a.val; rw [if_neg (by decide)])).trans ?_
  exact broadcastInDim_apply _ bcast_S_S131072 _ (ValueIdx.ix1 a) ValueIdx.ix0 (fun b => b.elim0)

/-- The zero base is zero at every index. -/
theorem zeroK_apply (k : SN2.Idx) : zeroK k = Ideal.ofBits .f32 0x00000000#32 := by
  unfold zeroK
  exact broadcastInDim_apply _ bcast_S_S4096x4096x2 _ k ValueIdx.ix0 (fun b => b.elim0)

/-- The scattered two-channel array as a function of the two arguments. -/
def scatK (e : (⟨S2x131072, .i32⟩ : BufTy).Contents (Elt Ideal)) (w : (⟨S131072, .f32⟩ : BufTy).Contents (Elt Ideal)) :
    (⟨S4096x4096x2, .f32⟩ : BufTy).Contents (Elt Ideal) :=
  Ideal.hostScatterAdd d3 zeroK (Cert.ReferenceIdeal.Read.val_main_v17 (F := Ideal) e) (updK w)

/-- Channel 0 of a two-channel array, sliced out and reshaped to the square, read at an index. -/
theorem chan0_apply (x : SN2.Idx → EReal) (i : SN.Idx) :
    shapeCast S4096x4096 (extractStridedSlice S4096x4096x1 ![0, 0, 0] x slices_S4096x4096x2_S4096x4096x1_0_0_0)
      shapeCasts_S4096x4096x1_S4096x4096 i = x (ValueIdx.ix3 (i 0) (i 1) 0) := by
  refine (shapeCast_apply _ shapeCasts_S4096x4096x1_S4096x4096 i (ValueIdx.ix3 (i 0) (i 1) (0 : Fin 1)) ?_).trans ?_
  · rw [Shape.rowMajor_val_three, Shape.rowMajor_val_two]
    show ((i 0).val * 4096 + (i 1).val) * 1 + 0 = (i 0).val * 4096 + (i 1).val
    omega
  · exact extractStridedSlice_apply ![0, 0, 0] x slices_S4096x4096x2_S4096x4096x1_0_0_0 _ (ValueIdx.ix3 (i 0) (i 1) (0 : Fin 2))
      (fun a => match a with
        | ⟨0, _⟩ => by show (i 0).val = 0 + (i 0).val; omega
        | ⟨1, _⟩ => by show (i 1).val = 0 + (i 1).val; omega
        | ⟨2, _⟩ => by show 0 = 0 + 0; rfl)

/-- Channel 1 of a two-channel array, sliced out and reshaped to the square, read at an index. -/
theorem chan1_apply (x : SN2.Idx → EReal) (i : SN.Idx) :
    shapeCast S4096x4096 (extractStridedSlice S4096x4096x1 ![0, 0, 1] x slices_S4096x4096x2_S4096x4096x1_0_0_1)
      shapeCasts_S4096x4096x1_S4096x4096 i = x (ValueIdx.ix3 (i 0) (i 1) 1) := by
  refine (shapeCast_apply _ shapeCasts_S4096x4096x1_S4096x4096 i (ValueIdx.ix3 (i 0) (i 1) (0 : Fin 1)) ?_).trans ?_
  · rw [Shape.rowMajor_val_three, Shape.rowMajor_val_two]
    show ((i 0).val * 4096 + (i 1).val) * 1 + 0 = (i 0).val * 4096 + (i 1).val
    omega
  · exact extractStridedSlice_apply ![0, 0, 1] x slices_S4096x4096x2_S4096x4096x1_0_0_1 _ (ValueIdx.ix3 (i 0) (i 1) (1 : Fin 2))
      (fun a => match a with
        | ⟨0, _⟩ => by show (i 0).val = 0 + (i 0).val; omega
        | ⟨1, _⟩ => by show (i 1).val = 0 + (i 1).val; omega
        | ⟨2, _⟩ => by show 1 = 1 + 0; rfl)

variable (V0 : Valuation τ sig (Elt Ideal))

set_option maxHeartbeats 4000000 in
/-- What the host prefix leaves in the buffer the first matrix is read from: channel 0 of the scattered array. -/
theorem ker_v24_term :
    (StableHlo.after (hostOps0 (F := Ideal)) V0 (Proc.devRef .tc main_v24) : (⟨S4096x4096, .f32⟩ : BufTy).Contents (Elt Ideal))
      = shapeCast S4096x4096 (extractStridedSlice S4096x4096x1 ![0, 0, 0]
          (scatK (V0 (Proc.devRef .tc main_arg1)) (V0 (Proc.devRef .tc main_arg2))) slices_S4096x4096x2_S4096x4096x1_0_0_0)
          shapeCasts_S4096x4096x1_S4096x4096 := by
  after_results_simp
  rfl

set_option maxHeartbeats 4000000 in
/-- What the host prefix leaves in the buffer of the unit-weight matrix: channel 1 of the scattered array. -/
theorem ker_v26_term :
    (StableHlo.after (hostOps0 (F := Ideal)) V0 (Proc.devRef .tc main_v26) : (⟨S4096x4096, .f32⟩ : BufTy).Contents (Elt Ideal))
      = shapeCast S4096x4096 (extractStridedSlice S4096x4096x1 ![0, 0, 1]
          (scatK (V0 (Proc.devRef .tc main_arg1)) (V0 (Proc.devRef .tc main_arg2))) slices_S4096x4096x2_S4096x4096x1_0_0_1)
          shapeCasts_S4096x4096x1_S4096x4096 := by
  after_results_simp
  rfl

set_option maxHeartbeats 4000000 in
/-- The narrowed copy of the first matrix: at the ideal instance narrowing changes nothing. -/
theorem ker_v27_term :
    (StableHlo.after (hostOps0 (F := Ideal)) V0 (Proc.devRef .tc main_v27) : (⟨S4096x4096, .bf16⟩ : BufTy).Contents (Elt Ideal))
      = shapeCast S4096x4096 (extractStridedSlice S4096x4096x1 ![0, 0, 0]
          (scatK (V0 (Proc.devRef .tc main_arg1)) (V0 (Proc.devRef .tc main_arg2))) slices_S4096x4096x2_S4096x4096x1_0_0_0)
          shapeCasts_S4096x4096x1_S4096x4096 := by
  after_results_simp
  rfl

/-- The buffer the kernels read the first matrix from holds the reference's adjacency matrix. -/
theorem ker_v24' :
    (StableHlo.after (hostOps0 (F := Ideal)) V0 (Proc.devRef .tc main_v24) : (⟨S4096x4096, .f32⟩ : BufTy).Contents (Elt Ideal))
      = Cert.ReferenceIdeal.Read.val_main_v18 (F := Ideal) (V0 (Proc.devRef .tc main_arg1)) (V0 (Proc.devRef .tc main_arg2)) := by
  refine (ker_v24_term V0).trans ?_
  funext i
  rw [chan0_apply, v18_apply]
  unfold scatK
  rw [scatter3_apply, zeroK_apply]
  refine congrArg (fun s => Ideal.ofBits .f32 0x00000000#32 + s) (Finset.sum_congr rfl fun j _ => ?_)
  exact (updK_ch0 _ (j 0)).trans (congrArg _ (ValueIdx.eq_ix1 j).symm)

/-- The buffer of the unit-weight matrix holds the reference's edge-count matrix. -/
theorem ker_v26' :
    (StableHlo.after (hostOps0 (F := Ideal)) V0 (Proc.devRef .tc main_v26) : (⟨S4096x4096, .f32⟩ : BufTy).Contents (Elt Ideal))
      = Cert.ReferenceIdeal.Read.val_main_v34 (F := Ideal) (V0 (Proc.devRef .tc main_arg1)) := by
  refine (ker_v26_term V0).trans ?_
  funext i
  rw [chan1_apply, v34_apply]
  unfold scatK
  rw [scatter3_apply, zeroK_apply]
  refine congrArg (fun s => Ideal.ofBits .f32 0x00000000#32 + s) (Finset.sum_congr rfl fun j _ => ?_)
  exact updK_ch1 _ (j 0)

/-- The narrowed copy of the first matrix holds the reference's adjacency matrix too. -/
theorem ker_v27' :
    (StableHlo.after (hostOps0 (F := Ideal)) V0 (Proc.devRef .tc main_v27) : (⟨S4096x4096, .bf16⟩ : BufTy).Contents (Elt Ideal))
      = Cert.ReferenceIdeal.Read.val_main_v18 (F := Ideal) (V0 (Proc.devRef .tc main_arg1)) (V0 (Proc.devRef .tc main_arg2)) :=
  (ker_v27_term V0).trans ((ker_v24_term V0).symm.trans (ker_v24' V0))

end Ker

/-! ## The statements over the specification's names -/

/-- After the kernel program's host prefix, from any contents `V0` of its buffers, the buffer the kernels read the
    first matrix from holds `Aref` of the two arguments. -/
theorem ker_v24 (V0 : Valuation Cert.KernelIdeal.τ Cert.KernelIdeal.sig (Elt Ideal)) :
    (StableHlo.after (Cert.KernelIdeal.Gen.hostOps0 (F := Ideal)) V0 (Proc.devRef .tc Cert.KernelIdeal.main_v24) : S4k.Idx → EReal)
      = Aref (V0 (Proc.devRef .tc Cert.KernelIdeal.main_arg1)) (V0 (Proc.devRef .tc Cert.KernelIdeal.main_arg2)) :=
  ker_v24' V0

/-- After the host prefix the buffer of the unit-weight matrix holds `P0ref` of the edge list. -/
theorem ker_v26 (V0 : Valuation Cert.KernelIdeal.τ Cert.KernelIdeal.sig (Elt Ideal)) :
    (StableHlo.after (Cert.KernelIdeal.Gen.hostOps0 (F := Ideal)) V0 (Proc.devRef .tc Cert.KernelIdeal.main_v26) : S4k.Idx → EReal)
      = P0ref (V0 (Proc.devRef .tc Cert.KernelIdeal.main_arg1)) :=
  ker_v26' V0

/-- After the host prefix the narrowed copy of the first matrix holds `Aref` of the two arguments. -/
theorem ker_v27 (V0 : Valuation Cert.KernelIdeal.τ Cert.KernelIdeal.sig (Elt Ideal)) :
    (StableHlo.after (Cert.KernelIdeal.Gen.hostOps0 (F := Ideal)) V0 (Proc.devRef .tc Cert.KernelIdeal.main_v27) : S4k.Idx → EReal)
      = Aref (V0 (Proc.devRef .tc Cert.KernelIdeal.main_arg1)) (V0 (Proc.devRef .tc Cert.KernelIdeal.main_arg2)) :=
  ker_v27' V0

end Cert.Bridge

end
-- ==== Proof.Math.Ref.lean ====
/- The reference program's result, read entry by entry at the ideal values, is the whole-matrix formula of the two
   matrices it builds from the edge list. -/
import proofs.«160133_j25744033972455_2_alg».proof.Proof.Gen.ReferenceIdeal.Read
import proofs.«160133_j25744033972455_2_alg».proof.Proof.Math.RefDefs

noncomputable section

namespace Cert.Bridge

open Idealize.ShloMosaic Idealize.ShloMosaic.ValueIdx Cert.ReferenceIdeal Cert.ReferenceIdeal.Read
open scoped BigOperators

/-- The operand indices of the two whole products at output index `i` and contraction coordinate `k`:
    `(i 0, k)` on the left and `(k, i 1)` on the right. -/
theorem lidx35_eq (i : S4k.Idx) (k : Fin 4096) : lidx_main_v35 i k = ix2 (n0 := 4096) (n1 := 4096) (i 0) k := by
  funext a; match a with | ⟨0, _⟩ => rfl | ⟨1, _⟩ => rfl
theorem ridx35_eq (i : S4k.Idx) (k : Fin 4096) : ridx_main_v35 i k = ix2 (n0 := 4096) (n1 := 4096) k (i 1) := by
  funext a; match a with | ⟨0, _⟩ => rfl | ⟨1, _⟩ => rfl
theorem lidx39_eq (i : S4k.Idx) (k : Fin 4096) : lidx_main_v39 i k = ix2 (n0 := 4096) (n1 := 4096) (i 0) k := by
  funext a; match a with | ⟨0, _⟩ => rfl | ⟨1, _⟩ => rfl
theorem ridx39_eq (i : S4k.Idx) (k : Fin 4096) : ridx_main_v39 i k = ix2 (n0 := 4096) (n1 := 4096) k (i 1) := by
  funext a; match a with | ⟨0, _⟩ => rfl | ⟨1, _⟩ => rfl

/-- An elementwise comparison against the threshold word followed by the choice between the element and the
    zero word is the threshold of the element. -/
theorem select_cmp_eq_thr (x : EReal) :
    Scalar.select (FloatOps.cmpf (F := Ideal) (φ := .f32) .oge x (FloatOps.ofBits .f32 0x3BA3D70A#32)) x
        (FloatOps.ofBits (F := Ideal) .f32 0x00000000#32) = thr x := by
  show Scalar.select (Ideal.cmp .oge x (Ideal.ofBits .f32 0x3BA3D70A#32)) x (Ideal.ofBits .f32 0x00000000#32) = _
  rw [Ideal.ofBits_zero_f32]
  rfl

variable (e : (⟨S2x131072, .i32⟩ : BufTy).Contents (Elt Ideal)) (w : (⟨S131072, .f32⟩ : BufTy).Contents (Elt Ideal))

/-- The first whole product is `A · A`. -/
theorem ref_v35 (i : S4k.Idx) : val_main_v35 (F := Ideal) e w i = mm (Aref e w) (Aref e w) i := by
  rw [val_main_v35_apply]
  unfold mm Aref
  refine Finset.sum_congr rfl fun k _ => ?_
  rw [lidx35_eq, ridx35_eq]

/-- Its threshold is `M2 A`. -/
theorem ref_v38 (i : S4k.Idx) : val_main_v38 (F := Ideal) e w i = M2 (Aref e w) i := by
  rw [val_main_v38_apply, val_main_v37_apply, val_main_call0_v0_apply, val_main_cst_10_apply, val_main_v36_apply,
    val_main_cst_9_apply, ref_v35]
  exact select_cmp_eq_thr _

/-- The second whole product is `A · M2 A`. -/
theorem ref_v39 (i : S4k.Idx) : val_main_v39 (F := Ideal) e w i = mm (Aref e w) (M2 (Aref e w)) i := by
  rw [val_main_v39_apply]
  unfold mm
  refine Finset.sum_congr rfl fun k _ => ?_
  rw [lidx39_eq, ridx39_eq, ref_v38]
  rfl

/-- Its threshold. -/
theorem ref_v42 (i : S4k.Idx) : val_main_v42 (F := Ideal) e w i = thr (mm (Aref e w) (M2 (Aref e w)) i) := by
  rw [val_main_v42_apply, val_main_v41_apply, val_main_call1_v0_apply, val_main_cst_12_apply, val_main_v40_apply,
    val_main_cst_11_apply, ref_v39]
  exact select_cmp_eq_thr _

/-- The reference's result is the four-term combination of the edge-count matrix, the adjacency matrix, the
    thresholded square and the thresholded product with it. -/
theorem ref_out : (val_main_v53 (F := Ideal) e w : S4k.Idx → EReal) = out (Aref e w) (P0ref e) := by
  funext i
  rw [val_main_v53_apply, val_main_v50_apply, val_main_v47_apply, val_main_v44_apply, val_main_v46_apply,
    val_main_v49_apply, val_main_v52_apply, ref_v38, ref_v42]
  rfl

end Cert.Bridge

end
-- ==== Proof.Claims.lean ====
/-
  The five claims.

  Frames.  Each kernel program's @main is a host prefix followed by two kernel regions; its run (module `Run`)
  ends with every argument array at its launch contents, at the word level and at the ideal instance alike.  The
  reference has no kernel: its frame is its run with the result dropped.

  Values, over the extended reals.  With a the scattered edge weights and p0 the scattered edge counts (both
  4096 × 4096), both programs end at
      0.4 · p0 + 0.24 · a + 0.144 · T(a · a) + 0.0864 · T(a · T(a · a)),
  T the entrywise threshold at 0.005, the float literals read as the same extended reals on both sides:
    · the kernel program builds a and p0 by ONE scatter-add into a 4096 × 4096 × 2 buffer and slices it; the
      reference by two scatter-adds — the same sums of the updates landing on each entry;
    · each kernel region accumulates its matrix product over four blocks of the contracted axis, from zero; the
      reference contracts the whole axis at once — the same sum, regrouped (only commutativity and associativity
      of the extended reals' addition, and 0 + x = x; no finiteness is used);
    · the change of float format on the way into the matrix unit is the identity at the ideal instance.
-/
import proofs.«160133_j25744033972455_2_alg».proof.Defs
import proofs.«160133_j25744033972455_2_alg».proof.Proof.K.Frame
import proofs.«160133_j25744033972455_2_alg».proof.Proof.KI.Frame
import proofs.«160133_j25744033972455_2_alg».proof.Proof.KI.Value0
import proofs.«160133_j25744033972455_2_alg».proof.Proof.KI.Value1
import proofs.«160133_j25744033972455_2_alg».proof.Proof.Math.Scatter
import proofs.«160133_j25744033972455_2_alg».proof.Proof.Math.Ref
import proofs.«160133_j25744033972455_2_alg».proof.Proof.Gen.Pre_finite_inputs
import proofs.«160133_j25744033972455_2_alg».proof.Proof.Gen.ReferenceIdeal.Run
import proofs.«160133_j25744033972455_2_alg».proof.Proof.Gen.ReferenceIdeal.Read

noncomputable section

namespace Cert.Proof.Claims

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

open Cert.KernelIdeal.Hand in
/-- What the kernel program's result array ends at: the specification at the scattered weights and counts. -/
theorem kernel_out (m : (ℓ : Loc Cert.KernelIdeal.nD Cert.KernelIdeal.τ Cert.KernelIdeal.sig) → Buf (Elt Ideal) ℓ) (c : Dev Cert.KernelIdeal.nD) :
    (V3 (F := Ideal) m c Cert.KernelIdeal.main_v29 : Cert.Bridge.S4k.Idx → EReal)
      = Cert.Bridge.out (Cert.Bridge.Aref (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (Cert.Bridge.P0ref (m ((c.tc : Thread Cert.KernelIdeal.nD Cert.KernelIdeal.τ).loc Cert.KernelIdeal.main_arg1))) := by
  rw [V3_v29]
  refine final1 (V2 m) c _ _ ?_ ?_ ?_ ?_
  · exact (congrArg (fun x => (x : Cert.Bridge.S4k.Idx → EReal)) (V2_of_ne m c Cert.KernelIdeal.main_v27 (by decide))).trans (Cert.Bridge.ker_v27 (W0 m c))
  · exact (congrArg (fun x => (x : Cert.Bridge.S4k.Idx → EReal)) (V2_of_ne m c Cert.KernelIdeal.main_v24 (by decide))).trans (Cert.Bridge.ker_v24 (W0 m c))
  · exact (congrArg (fun x => (x : Cert.Bridge.S4k.Idx → EReal)) (V2_of_ne m c Cert.KernelIdeal.main_v26 (by decide))).trans (Cert.Bridge.ker_v26 (W0 m c))
  · rw [V2_v28]
    refine (final0 (V1 m) c).trans ?_
    exact congrArg Cert.Bridge.M2 (Cert.Bridge.ker_v27 (W0 m c))

theorem algebraic : Cert.algebraic_KernelIdeal_ReferenceIdeal := by
  intro m ρ m' ρ' _ hagree
  refine ⟨fun c => Cert.KernelIdeal.Hand.V3 (F := Ideal) m c Cert.KernelIdeal.main_v29, Cert.KernelIdeal.Hand.run_post (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).2.1, (hagree c).2.2]
  exact (Cert.Bridge.ref_out _ _).trans (kernel_out m c).symm

end Cert.Proof.Claims

end
-- ==== Proof.lean ====
/-
  The certificate of a personalised-PageRank power series over a dense 4096 × 4096 adjacency matrix built from an
  edge list: with a the scattered edge weights and p0 the scattered edge counts,

      result = 0.4 · p0 + 0.24 · a + 0.144 · T(a · a) + 0.0864 · T(a · T(a · a)),        T x = x if x ≥ 0.005 else 0.

  The kernel program computes the two thresholded products by two tiled matrix-product kernels on a 4 × 4 × 4 grid
  (1024 × 1024 blocks, the contracted axis innermost, an accumulator zeroed at its first block and read out at its
  last; the second kernel adds the four weighted terms as it reads its accumulator out); the reference by two whole
  matrix products.  Module `Claims` proves the five claims: the three frames, the (empty) idealization ledger, and
  the equality of the two results over the extended reals.
-/
import proofs.«160133_j25744033972455_2_alg».proof.Defs
import proofs.«160133_j25744033972455_2_alg».proof.Proof.Gen.Kernel
import proofs.«160133_j25744033972455_2_alg».proof.Proof.Gen.KernelIdeal
import proofs.«160133_j25744033972455_2_alg».proof.Proof.Gen.ReferenceIdeal
import proofs.«160133_j25744033972455_2_alg».proof.Proof.Gen.Pre_finite_inputs
import proofs.«160133_j25744033972455_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
